-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S40x128 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S40x128 .f32 := Host.absf main_arg10
  let main_cst_16 : FVec F S_ .f32 := constant S_ .f32 0x7F800000#32
  let main_v45 : FVec F S40x128 .f32 := broadcastInDim S40x128 ![] bcast_S_S40x128 main_cst_16
  let main_v46 : IVec S40x128 1 := cmpf .olt main_v44 main_v45
  let main_c_17 : IVec S_ 1 := constantI S_ 1 1#1
  let main_v47 : IVec S_ 1 := (fun x v => Host.reduce IntOp.andi x v reducesTo_S40x128_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S40x128 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S40x128 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S128x40 : Shape := ⟨2, ![128, 40]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 154
  | .vmem => 68
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S40x128, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S50000, .f32⟩
  | 46 => ⟨S50000x1, .f32⟩
  | 47 => ⟨S128x128, .f32⟩
  | 48 => ⟨S_, .f32⟩
  | 49 => ⟨S_, .f32⟩
  | 50 => ⟨S_, .f32⟩
  | 51 => ⟨S128x128, .f32⟩
  | 52 => ⟨S128x128, .f32⟩
  | 53 => ⟨S128x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128, .f32⟩
  | 72 => ⟨S50000x128, .f32⟩
  | 73 => ⟨S128x128, .f32⟩
  | 74 => ⟨S_, .f32⟩
  | 75 => ⟨S_, .f32⟩
  | 76 => ⟨S_, .f32⟩
  | 77 => ⟨S128x128, .f32⟩
  | 78 => ⟨S128x128, .f32⟩
  | 79 => ⟨S128x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x1, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S1x128, .f32⟩
  | 98 => ⟨S50000x128, .f32⟩
  | 99 => ⟨S128x128, .f32⟩
  | 100 => ⟨S_, .f32⟩
  | 101 => ⟨S_, .f32⟩
  | 102 => ⟨S_, .f32⟩
  | 103 => ⟨S128x128, .f32⟩
  | 104 => ⟨S128x128, .f32⟩
  | 105 => ⟨S128x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x1, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1x128, .f32⟩
  | 124 => ⟨S50000x128, .f32⟩
  | 125 => ⟨S128x128, .f32⟩
  | 126 => ⟨S_, .f32⟩
  | 127 => ⟨S_, .f32⟩
  | _ => ⟨S50000x128, .f32⟩

abbrev hbmTy0_1 (i : Nat) : BufTy := match i % 128 with
  | 0 => ⟨S_, .f32⟩
  | 1 => ⟨S128x128, .f32⟩
  | 2 => ⟨S128x128, .f32⟩
  | 3 => ⟨S128x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S800000x1, .f32⟩
  | 15 => ⟨S800000x128, .f32⟩
  | 16 => ⟨S800000x128, .f32⟩
  | 17 => ⟨S_, .f32⟩
  | 18 => ⟨S50000x128, .f32⟩
  | 19 => ⟨S800000x1, .i32⟩
  | 20 => ⟨S50000x128, .f32⟩
  | 21 => ⟨S1x128, .f32⟩
  | 22 => ⟨S50000x128, .f32⟩
  | 23 => ⟨S128x40, .f32⟩
  | 24 => ⟨S1x40, .f32⟩
  | 25 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x1, .f32⟩
  | .local _ .vmem, ⟨40, _⟩ => ⟨S2000x1, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x1, .f32⟩
  | .local _ .vmem, ⟨56, _⟩ => ⟨S2000x1, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S128x40, .f32⟩
  | .local _ .vmem, ⟨65, _⟩ => ⟨S1x40, .f32⟩
  | .local _ .vmem, ⟨66, _⟩ => ⟨S2000x40, .f32⟩
  | .local _ .vmem, ⟨67, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_v0 : Ref sig .tc := ⟨.hbm, 73, rfl⟩
abbrev main_call1_cst : Ref sig .tc := ⟨.hbm, 74, rfl⟩
abbrev main_call1_v1 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_8 : Ref sig .tc := ⟨.hbm, 81, rfl⟩
abbrev main_v53 : Ref sig .tc := ⟨.hbm, 82, rfl⟩
abbrev main_v54 : Ref sig .tc := ⟨.hbm, 83, rfl⟩
abbrev main_c_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_v0 : Ref sig .tc := ⟨.hbm, 99, rfl⟩
abbrev main_call2_cst : Ref sig .tc := ⟨.hbm, 100, rfl⟩
abbrev main_call2_v1 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_11 : Ref sig .tc := ⟨.hbm, 107, rfl⟩
abbrev main_v73 : Ref sig .tc := ⟨.hbm, 108, rfl⟩
abbrev main_v74 : Ref sig .tc := ⟨.hbm, 109, rfl⟩
abbrev main_c_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_13 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_v0 : Ref sig .tc := ⟨.hbm, 125, rfl⟩
abbrev main_call3_cst : Ref sig .tc := ⟨.hbm, 126, rfl⟩
abbrev main_call3_v1 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_14 : Ref sig .tc := ⟨.hbm, 133, rfl⟩
abbrev main_v93 : Ref sig .tc := ⟨.hbm, 134, rfl⟩
abbrev main_v94 : Ref sig .tc := ⟨.hbm, 135, rfl⟩
abbrev main_c_15 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_16 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg4_1 : Ref sig .tc := ⟨.vmem, 59, rfl⟩
abbrev cc7_stg5_0 : Ref sig .tc := ⟨.vmem, 60, rfl⟩
abbrev cc7_stg5_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem4_0 : DmaSem sig := 58
abbrev cc7_sem4_1 : DmaSem sig := 59
abbrev cc7_sem5_0 : DmaSem sig := 60
abbrev cc7_sem5_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem3_0 : DmaSem sig := 66
abbrev cc8_sem3_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x40 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  reducesTo_S128x128_S_d0_1 : S128x128.ReducesTo [0, 1] S_
  h_S_ : 0 < S_.numel
  bcast_S_S128x128 : S_.BroadcastsInDim S128x128 (![] : Fin 0 → Fin S128x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .f32 = 32 ∨ (Rect.block (s := S50000x128) S2000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x40.size a ≤ S128x40.size a
  hwx8_1 : ∀ i : grid8.Coords, EltTy.bits .f32 = 32 ∨ (Rect.block (s := S128x40) S128x40.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x40.size a ≤ S1x40.size a
  hwx8_2 : ∀ i : grid8.Coords, EltTy.bits .f32 = 32 ∨ (Rect.block (s := S1x40) S1x40.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x40.size a ≤ S50000x40.size a
  hwx8_3 : ∀ i : grid8.Coords, EltTy.bits .f32 = 32 ∨ (Rect.block (s := S50000x40) S2000x40.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v67) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S2000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v87) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v105) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v106) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S2000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v107) S2000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v107) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v108) S128x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v109) S1x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v110) S2000x40.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 277
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S40x128, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S128x128, .f32⟩
  | 17 => ⟨S_, .f32⟩
  | 18 => ⟨S_, .f32⟩
  | 19 => ⟨S_, .f32⟩
  | 20 => ⟨S128x128, .f32⟩
  | 21 => ⟨S128x128, .f32⟩
  | 22 => ⟨S128x128, .f32⟩
  | 23 => ⟨S50000x128, .f32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S128x128, .f32⟩
  | 78 => ⟨S_, .f32⟩
  | 79 => ⟨S_, .f32⟩
  | 80 => ⟨S_, .f32⟩
  | 81 => ⟨S128x128, .f32⟩
  | 82 => ⟨S128x128, .f32⟩
  | 83 => ⟨S128x128, .f32⟩
  | 84 => ⟨S50000x128, .f32⟩
  | 85 => ⟨S_, .f32⟩
  | 86 => ⟨S800000, .f32⟩
  | 87 => ⟨S_, .f32⟩
  | 88 => ⟨S50000, .f32⟩
  | 89 => ⟨S800000x1, .i32⟩
  | 90 => ⟨S50000, .f32⟩
  | 91 => ⟨S_, .f32⟩
  | 92 => ⟨S50000, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S800000, .f32⟩
  | 114 => ⟨S800000x1, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000, .f32⟩
  | 3 => ⟨S50000x1, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S128x128, .f32⟩
  | 15 => ⟨S_, .f32⟩
  | 16 => ⟨S_, .f32⟩
  | 17 => ⟨S_, .f32⟩
  | 18 => ⟨S128x128, .f32⟩
  | 19 => ⟨S128x128, .f32⟩
  | 20 => ⟨S128x128, .f32⟩
  | 21 => ⟨S50000x128, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S128x128, .f32⟩
  | 80 => ⟨S_, .f32⟩
  | 81 => ⟨S_, .f32⟩
  | 82 => ⟨S_, .f32⟩
  | 83 => ⟨S128x128, .f32⟩
  | 84 => ⟨S128x128, .f32⟩
  | 85 => ⟨S128x128, .f32⟩
  | 86 => ⟨S50000x128, .f32⟩
  | 87 => ⟨S_, .f32⟩
  | 88 => ⟨S800000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000, .f32⟩
  | 115 => ⟨S800000, .f32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x128, .f32⟩
  | 127 => ⟨S800000x128, .f32⟩
  | _ => ⟨S50000x128, .f32⟩

abbrev hbmTy0_2 (i : Nat) : BufTy := match i % 128 with
  | 0 => ⟨S_, .f32⟩
  | 1 => ⟨S50000x128, .f32⟩
  | 2 => ⟨S800000x1, .i32⟩
  | 3 => ⟨S50000x128, .f32⟩
  | 4 => ⟨S50000, .f32⟩
  | 5 => ⟨S50000x1, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S128x40, .f32⟩
  | 17 => ⟨S50000x40, .f32⟩
  | 18 => ⟨S1x40, .f32⟩
  | 19 => ⟨S50000x40, .f32⟩
  | 20 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_v0 : Ref sig .tc := ⟨.hbm, 77, rfl⟩
abbrev main_call1_cst : Ref sig .tc := ⟨.hbm, 78, rfl⟩
abbrev main_call1_v1 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_11 : Ref sig .tc := ⟨.hbm, 95, rfl⟩
abbrev main_v64 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call2_cst : Ref sig .tc := ⟨.hbm, 138, rfl⟩
abbrev main_call2_v0 : Ref sig .tc := ⟨.hbm, 139, rfl⟩
abbrev main_v100 : Ref sig .tc := ⟨.hbm, 140, rfl⟩
abbrev main_v101 : Ref sig .tc := ⟨.hbm, 141, rfl⟩
abbrev main_call3_v0 : Ref sig .tc := ⟨.hbm, 142, rfl⟩
abbrev main_call3_cst : Ref sig .tc := ⟨.hbm, 143, rfl⟩
abbrev main_call3_v1 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_18 : Ref sig .tc := ⟨.hbm, 150, rfl⟩
abbrev main_v107 : Ref sig .tc := ⟨.hbm, 151, rfl⟩
abbrev main_cst_19 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_20 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_21 : Ref sig .tc := ⟨.hbm, 160, rfl⟩
abbrev main_v114 : Ref sig .tc := ⟨.hbm, 161, rfl⟩
abbrev main_v115 : Ref sig .tc := ⟨.hbm, 162, rfl⟩
abbrev main_c_22 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_23 : Ref sig .tc := ⟨.hbm, 169, rfl⟩
abbrev main_v121 : Ref sig .tc := ⟨.hbm, 170, rfl⟩
abbrev main_v122 : Ref sig .tc := ⟨.hbm, 171, rfl⟩
abbrev main_c_24 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_c_25 : Ref sig .tc := ⟨.hbm, 180, rfl⟩
abbrev main_v130 : Ref sig .tc := ⟨.hbm, 181, rfl⟩
abbrev main_v131 : Ref sig .tc := ⟨.hbm, 182, rfl⟩
abbrev main_c_26 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_27 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_call4_cst : Ref sig .tc := ⟨.hbm, 203, rfl⟩
abbrev main_call4_v0 : Ref sig .tc := ⟨.hbm, 204, rfl⟩
abbrev main_v150 : Ref sig .tc := ⟨.hbm, 205, rfl⟩
abbrev main_v151 : Ref sig .tc := ⟨.hbm, 206, rfl⟩
abbrev main_call5_v0 : Ref sig .tc := ⟨.hbm, 207, rfl⟩
abbrev main_call5_cst : Ref sig .tc := ⟨.hbm, 208, rfl⟩
abbrev main_call5_v1 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_28 : Ref sig .tc := ⟨.hbm, 215, rfl⟩
abbrev main_v157 : Ref sig .tc := ⟨.hbm, 216, rfl⟩
abbrev main_cst_29 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_30 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_c_31 : Ref sig .tc := ⟨.hbm, 225, rfl⟩
abbrev main_v164 : Ref sig .tc := ⟨.hbm, 226, rfl⟩
abbrev main_v165 : Ref sig .tc := ⟨.hbm, 227, rfl⟩
abbrev main_c_32 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_c_33 : Ref sig .tc := ⟨.hbm, 234, rfl⟩
abbrev main_v171 : Ref sig .tc := ⟨.hbm, 235, rfl⟩
abbrev main_v172 : Ref sig .tc := ⟨.hbm, 236, rfl⟩
abbrev main_c_34 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_c_35 : Ref sig .tc := ⟨.hbm, 245, rfl⟩
abbrev main_v180 : Ref sig .tc := ⟨.hbm, 246, rfl⟩
abbrev main_v181 : Ref sig .tc := ⟨.hbm, 247, rfl⟩
abbrev main_c_36 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_cst_37 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_call6_cst : Ref sig .tc := ⟨.hbm, 268, rfl⟩
abbrev main_call6_v0 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S128x128_S_d0_1 : S128x128.ReducesTo [0, 1] S_
  h_S_ : 0 < S_.numel
  bcast_S_S128x128 : S_.BroadcastsInDim S128x128 (![] : Fin 0 → Fin S128x128.rank)
  transposes_S128x128_S128x128_1_0 : S128x128.Transposes [1, 0] S128x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/-
  The idealized kernel's run with every buffer named: every weakly fair execution of the whole program — its nine
  kernel launches and the host operations among them — terminates, nothing faulting, and each buffer that outlives
  the launches ends at the contents the fold through the program's segments gives it.  The frame theorem of the
  generated module states the same run and keeps only the argument arrays; here the whole final valuation is kept,
  so that the result buffer can be read.
-/
import proofs.«179305_j15616501088588_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c b hb => h c b hb)

end Cert.KernelIdeal.Gen

end
-- ==== Proof.Spec.lean ====
/-
  The layers of a four-layer graph convolution network with a linear classifier, entry by entry on the extended
  reals.  A dense step is a plain matrix product; the combine steps add to the aggregated messages the node's own
  projected features scaled by its squared inverse-root degree and the bias row — the first layer as it is, the later
  layers through max(·, 0) and with the previous layer's output added back (the residual skip); the classifier is
  a matrix product plus a bias row.  Nothing here mentions a program: both programs are shown to compute these.
-/
import Idealize.ShloMosaic.PureOps.Ideal
import Idealize.ShloMosaic.Lib.ValueIdx

noncomputable section

namespace Cert.Gcn

open Idealize.ShloMosaic Idealize.ShloMosaic.ValueIdx

/-- [nodes, features], [features, features], the per-node column, the bias row, and the classifier's shapes. -/
abbrev SNxD : Shape := ⟨2, ![50000, 128]⟩
abbrev SDxD : Shape := ⟨2, ![128, 128]⟩
abbrev SNx1 : Shape := ⟨2, ![50000, 1]⟩
abbrev S1xD : Shape := ⟨2, ![1, 128]⟩
abbrev SDxC : Shape := ⟨2, ![128, 40]⟩
abbrev S1xC : Shape := ⟨2, ![1, 40]⟩
abbrev SNxC : Shape := ⟨2, ![50000, 40]⟩

/-- Entry (p, q) of the product X · W: the sum over k of X[p,k] · W[k,q]. -/
def linAt (X : FVec Ideal SNxD .f32) (W : FVec Ideal SDxD .f32) (p : Fin 50000) (q : Fin 128) : EReal :=
  ∑ k : Fin 128, X (ix2 p k) * W (ix2 k q)

/-- The dense step: every node's features times the weight matrix. -/
def lin (X : FVec Ideal SNxD .f32) (W : FVec Ideal SDxD .f32) : FVec Ideal SNxD .f32 :=
  fun i => linAt X W (i 0) (i 1)

/-- Entry (p, q) of the first layer's combine: agg[p,q] + s[p] · h[p,q] + b[q]. -/
def combineAt (agg h : FVec Ideal SNxD .f32) (s : FVec Ideal SNx1 .f32) (b : FVec Ideal S1xD .f32)
    (p : Fin 50000) (q : Fin 128) : EReal :=
  agg (ix2 p q) + s (ix2 p 0) * h (ix2 p q) + b (ix2 0 q)

/-- The first layer's combine: aggregated messages plus the self term plus the bias. -/
def combine (agg h : FVec Ideal SNxD .f32) (s : FVec Ideal SNx1 .f32) (b : FVec Ideal S1xD .f32) :
    FVec Ideal SNxD .f32 :=
  fun i => combineAt agg h s b (i 0) (i 1)

/-- A later layer's combine: the first layer's through max(·, 0), plus the residual skip. -/
def combineRelu (agg h : FVec Ideal SNxD .f32) (s : FVec Ideal SNx1 .f32) (b : FVec Ideal S1xD .f32)
    (skip : FVec Ideal SNxD .f32) : FVec Ideal SNxD .f32 :=
  fun i => max (combineAt agg h s b (i 0) (i 1)) 0 + skip i

/-- The classifier: entry (p, q) is the sum over k of X[p,k] · W[k,q], plus b[q]. -/
def classify (X : FVec Ideal SNxD .f32) (W : FVec Ideal SDxC .f32) (b : FVec Ideal S1xC .f32) :
    FVec Ideal SNxC .f32 :=
  fun i => (∑ k : Fin 128, X (ix2 (i 0) k) * W (ix2 k (i 1))) + b (ix2 0 (i 1))

end Cert.Gcn

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«179305_j15616501088588_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibSlots.lean ====
/-
  Layout operations of a "cells by slots" arrangement, read at an index given by coordinates.

  A flat list of E = n · m entries (m consecutive slots per cell) is reshaped to [n, m] (or, with c columns,
  [E, c] to [n, m, c]) and summed along the slot axis; a per-row vector [a] is made a column [a, 1] and the
  column is spread over b columns, both by a broadcast that names the axes it keeps.  Each lemma reads one
  of these at literal coordinates: entry (p, j) of the reshaped list is entry m p + j of the list; the sum
  along the slot axis at (p, q) is the initial value plus the sum over the slots j of the entries (p, j, q).
-/
import Idealize.ShloMosaic.Lib.ValueLayout
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws

open scoped BigOperators

namespace Cert.Lib.Slots

open Idealize.ShloMosaic Idealize.ShloMosaic.ValueIdx

variable {α : Type}

/-! ## A vector as a column, a column over the columns -/

/-- An [a] vector broadcast to an [a, 1] column along axis 0 reads, at (i, u), the vector at i. -/
theorem bcastCol_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An [a, 1] column broadcast to [a, b] along both axes reads, at (p, c), the column's entry in row p. -/
theorem bcastRow_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The flat list as cells by slots -/

/-- [E] reshaped to [n, m] reads, at (p, j), entry m p + j of the list. -/
theorem slots2_apply {n m E : ℕ} (x : (⟨1, ![E]⟩ : Shape).Idx → α)
    (h : (⟨1, ![E]⟩ : Shape).ShapeCasts ⟨2, ![n, m]⟩) (p : Fin n) (j : Fin m) (e : Fin E)
    (he : e.val = m * p.val + j.val) : shapeCast ⟨2, ![n, m]⟩ x h (ix2 p j) = x (ix1 e) :=
  shapeCast_apply x h _ _ (by
    rw [Shape.rowMajor_val_two, Shape.rowMajor_val_one]
    show e.val = p.val * m + j.val
    rw [he, Nat.mul_comm])

/-- [E, c] reshaped to [n, m, c] reads, at (p, j, q), row m p + j of the list, column q. -/
theorem slots3_apply {n m c E : ℕ} (x : (⟨2, ![E, c]⟩ : Shape).Idx → α)
    (h : (⟨2, ![E, c]⟩ : Shape).ShapeCasts ⟨3, ![n, m, c]⟩) (p : Fin n) (j : Fin m) (q : Fin c) (e : Fin E)
    (he : e.val = m * p.val + j.val) : shapeCast ⟨3, ![n, m, c]⟩ x h (ix3 p j q) = x (ix2 e q) :=
  shapeCast_apply x h _ _ (by
    rw [Shape.rowMajor_val_two, Shape.rowMajor_val_three]
    show e.val * c + q.val = (p.val * m + j.val) * c + q.val
    rw [he, Nat.mul_comm m])

/-! ## Sums along the slot axis -/

/-- The indices of [a, b] that a reduction along axis 1 runs over at p are (p, j). -/
theorem lift2 {a b : ℕ} (h : (⟨2, ![a, b]⟩ : Shape).Reduces [1] ⟨1, ![a]⟩) (p : Fin a) (j : Fin b) :
    h.lift (ix1 p) j = ix2 p j := by
  funext d
  apply Fin.ext
  match d with
  | ⟨0, _⟩ => rfl
  | ⟨1, _⟩ => rfl

/-- The indices of [a, b, c] that a reduction along axis 1 runs over at (p, q) are (p, j, q). -/
theorem lift3 {a b c : ℕ} (h : (⟨3, ![a, b, c]⟩ : Shape).Reduces [1] ⟨2, ![a, c]⟩) (p : Fin a) (q : Fin c) (j : Fin b) :
    h.lift (ix2 p q) j = ix3 p j q := by
  funext d
  apply Fin.ext
  match d with
  | ⟨0, _⟩ => rfl
  | ⟨1, _⟩ => rfl
  | ⟨2, _⟩ => rfl

/-- The host's sum of an [a, b] array along axis 1, at p: the initial value plus the sum over j of (p, j). -/
theorem hostSum2_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ j : Fin b, x (ix2 p j) := by
  have h : (⟨2, ![a, b]⟩ : Shape).Reduces [1] ⟨1, ![a]⟩ := by
    obtain ⟨hr, hs⟩ := h'
    exact ⟨hr, Nat.one_pos, hs⟩
  refine (Ideal.hostReduceAdd_single h' h x _ (ix1 p)).trans ?_
  refine congrArg (init (Shape.Idx.first hu) + ·) ?_
  show ∑ j : Fin b, x (h.lift (ix1 p) j) = _
  exact Finset.sum_congr rfl fun j _ => by rw [lift2]

/-- The host's sum of an [a, b, c] array along axis 1, at (p, q): the initial value plus the sum over j of (p, j, q). -/
theorem hostSum3_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (hu : 0 < u.numel) (p : Fin a) (q : Fin c) :
    Host.reduceAdd x init h' hu (ix2 p q) = init (Shape.Idx.first hu) + ∑ j : Fin b, x (ix3 p j q) := by
  have h : (⟨3, ![a, b, c]⟩ : Shape).Reduces [1] ⟨2, ![a, c]⟩ := by
    obtain ⟨hr, hs⟩ := h'
    exact ⟨hr, Nat.succ_pos _, hs⟩
  refine (Ideal.hostReduceAdd_single h' h x _ (ix2 p q)).trans ?_
  refine congrArg (init (Shape.Idx.first hu) + ·) ?_
  show ∑ j : Fin b, x (h.lift (ix2 p q) j) = _
  exact Finset.sum_congr rfl fun j _ => by rw [lift3]

end Cert.Lib.Slots
-- ==== Proof.Bridge.lean ====
/-
  The reference's spelling of each layer IS the layer of Spec.lean, as whole arrays over the extended reals.
-/
import proofs.«179305_j15616501088588_1_alg».proof.Proof.Spec
import proofs.«179305_j15616501088588_1_alg».proof.Proof.LibDotColsHost
import proofs.«179305_j15616501088588_1_alg».proof.Proof.LibColumns
import proofs.«179305_j15616501088588_1_alg».proof.Proof.LibSlots
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx

abbrev SN : Shape := ⟨1, ![50000]⟩
abbrev SD : Shape := ⟨1, ![128]⟩
abbrev SC : Shape := ⟨1, ![40]⟩
abbrev S0 : Shape := ⟨0, ![]⟩

/-! ## The bias row: a vector as a row, a row over the rows -/

/-- A [b] vector broadcast to a [1, b] row along axis 1 reads, at (u, c), the vector at c. -/
theorem bcastBias_apply {α : Type} {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A [1, b] row broadcast to [a, b] along both axes reads, at (p, c), the row's entry in column c. -/
theorem bcastRows_apply {α : Type} {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over a whole array reads, at every index, the scalar. -/
theorem bcastScalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- The spread zero of the later layers reads 0 everywhere. -/
theorem zeros_apply (hz : S0.BroadcastsInDim SNxD ![]) (p : Fin 50000) (q : Fin 128) :
    broadcastInDim SNxD ![] hz (constant (F := Ideal) S0 .f32 0x00000000#32) (ix2 p q) = 0 := by
  rw [bcastScalar_apply, constant_apply]
  exact Ideal.ofBits_zero_f32

/-- The host's combine read at (p, q): agg[p,q] + d2[p] · h[p,q] + b[q]. -/
theorem hostCombine_apply (agg h : FVec Ideal SNxD .f32) (d2 : FVec Ideal SN .f32) (b : FVec Ideal SD .f32)
    (hb0 : SN.BroadcastsInDim SNx1 ![0]) (hb1 : SNx1.BroadcastsInDim SNxD ![0, 1])
    (hb2 : SD.BroadcastsInDim S1xD ![1]) (hb3 : S1xD.BroadcastsInDim SNxD ![0, 1]) (p : Fin 50000) (q : Fin 128) :
    addf (addf agg (mulf (broadcastInDim SNxD ![0, 1] hb1 (broadcastInDim SNx1 ![0] hb0 d2)) h))
          (broadcastInDim SNxD ![0, 1] hb3 (broadcastInDim S1xD ![1] hb2 b)) (ix2 p q)
      = agg (ix2 p q) + d2 (ix1 p) * h (ix2 p q) + b (ix1 q) := by
  rw [addf_apply, addf_apply, mulf_apply, Cert.Lib.Slots.bcastRow_apply, Cert.Lib.Slots.bcastCol_apply,
    bcastRows_apply, bcastBias_apply]

/-- The first layer's combine entry at the degrees cast to a column and the bias cast to a row. -/
theorem combineAt_cast (agg h : FVec Ideal SNxD .f32) (d2 : FVec Ideal SN .f32) (b : FVec Ideal SD .f32)
    (hc : SN.ShapeCasts SNx1) (hr : SD.ShapeCasts S1xD) (p : Fin 50000) (q : Fin 128) :
    combineAt agg h (shapeCast SNx1 d2 hc) (shapeCast S1xD b hr) p q
      = agg (ix2 p q) + d2 (ix1 p) * h (ix2 p q) + b (ix1 q) := by
  unfold combineAt
  rw [shapeCast_a_a1_apply, shapeCast_a_1a_apply]

/-! ## The four layers -/

/-- The host's plain matrix product of the node features with a weight matrix is the dense step. -/
theorem host_lin (D : DotDims SNxD SDxD SNxD) (hD : D = DotDims.plain 50000 128 128)
    (X : FVec Ideal SNxD .f32) (W : FVec Ideal SDxD .f32) :
    Host.dotGeneral (F := Ideal) D none X W = lin X W := by
  funext i
  obtain ⟨p, q, rfl⟩ : ∃ (p : Fin 50000) (q : Fin 128), i = ix2 p q := ⟨i 0, i 1, eq_ix2 i⟩
  exact Cert.Lib.DotColsHost.dotGeneral_cols_apply D hD none .single X W p q

/-- The host's first-layer combine — the squared inverse-root degrees spread along the features, the bias spread along
    the nodes — is `combine` at the degrees cast to a column and the bias cast to a row. -/
theorem host_combine (agg h : FVec Ideal SNxD .f32) (d2 : FVec Ideal SN .f32) (b : FVec Ideal SD .f32)
    (hc : SN.ShapeCasts SNx1) (hr : SD.ShapeCasts S1xD)
    (hb0 : SN.BroadcastsInDim SNx1 ![0]) (hb1 : SNx1.BroadcastsInDim SNxD ![0, 1])
    (hb2 : SD.BroadcastsInDim S1xD ![1]) (hb3 : S1xD.BroadcastsInDim SNxD ![0, 1]) :
    combine agg h (shapeCast SNx1 d2 hc) (shapeCast S1xD b hr)
      = addf (addf agg (mulf (broadcastInDim SNxD ![0, 1] hb1 (broadcastInDim SNx1 ![0] hb0 d2)) h))
          (broadcastInDim SNxD ![0, 1] hb3 (broadcastInDim S1xD ![1] hb2 b)) := by
  funext i
  obtain ⟨p, q, rfl⟩ : ∃ (p : Fin 50000) (q : Fin 128), i = ix2 p q := ⟨i 0, i 1, eq_ix2 i⟩
  exact (combineAt_cast agg h d2 b hc hr p q).trans (hostCombine_apply agg h d2 b hb0 hb1 hb2 hb3 p q).symm

/-- A later layer on the host: the combine through the maximum with a spread zero, plus the skip. -/
theorem host_combineRelu (agg h skip : FVec Ideal SNxD .f32) (d2 : FVec Ideal SN .f32) (b : FVec Ideal SD .f32)
    (hc : SN.ShapeCasts SNx1) (hr : SD.ShapeCasts S1xD)
    (hb0 : SN.BroadcastsInDim SNx1 ![0]) (hb1 : SNx1.BroadcastsInDim SNxD ![0, 1])
    (hb2 : SD.BroadcastsInDim S1xD ![1]) (hb3 : S1xD.BroadcastsInDim SNxD ![0, 1])
    (hz : S0.BroadcastsInDim SNxD ![]) :
    combineRelu agg h (shapeCast SNx1 d2 hc) (shapeCast S1xD b hr) skip
      = addf (maximumf (addf (addf agg (mulf (broadcastInDim SNxD ![0, 1] hb1 (broadcastInDim SNx1 ![0] hb0 d2)) h))
          (broadcastInDim SNxD ![0, 1] hb3 (broadcastInDim S1xD ![1] hb2 b)))
          (broadcastInDim SNxD ![] hz (constant (F := Ideal) S0 .f32 0x00000000#32))) skip := by
  funext i
  obtain ⟨p, q, rfl⟩ : ∃ (p : Fin 50000) (q : Fin 128), i = ix2 p q := ⟨i 0, i 1, eq_ix2 i⟩
  rw [addf_apply, maximumf_apply, hostCombine_apply, zeros_apply]
  show max (combineAt agg h (shapeCast SNx1 d2 hc) (shapeCast S1xD b hr) p q) 0 + skip (ix2 p q) = _
  rw [combineAt_cast]

/-- The host's classifier: the plain product plus the bias spread along the nodes. -/
theorem host_classify (D : DotDims SNxD SDxC SNxC) (hD : D = DotDims.plain 50000 128 40)
    (X : FVec Ideal SNxD .f32) (W : FVec Ideal SDxC .f32) (b : FVec Ideal SC .f32)
    (hr : SC.ShapeCasts S1xC) (hb2 : SC.BroadcastsInDim S1xC ![1]) (hb3 : S1xC.BroadcastsInDim SNxC ![0, 1]) :
    classify X W (shapeCast S1xC b hr)
      = addf (Host.dotGeneral (F := Ideal) D none X W) (broadcastInDim SNxC ![0, 1] hb3 (broadcastInDim S1xC ![1] hb2 b)) := by
  funext i
  obtain ⟨p, q, rfl⟩ : ∃ (p : Fin 50000) (q : Fin 40), i = ix2 p q := ⟨i 0, i 1, eq_ix2 i⟩
  rw [addf_apply, bcastRows_apply, bcastBias_apply]
  show (∑ k : Fin 128, X (ix2 p k) * W (ix2 k q)) + shapeCast S1xC b hr (ix2 0 q) = _
  rw [shapeCast_a_1a_apply]
  exact congrArg (· + b (ix1 q)) (Cert.Lib.DotColsHost.dotGeneral_cols_apply D hD none .single X W p q).symm

end Cert.Gcn

end
-- ==== Proof.Final0.lean ====
/-
  Region 0: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibDotCols
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin0 : (![0, 0] : Fin 2 → Nat) = fun _ => 0 := funext fun a => by fin_cases a <;> rfl

/-- What the body stores at (p, q): row p of its block of features times column q of the weights. -/
theorem stored0_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Cert.Lib.DotCols.matmul_cols_apply dot_S2000x128_S128x128_S2000x128_1_0_0_1_n_n rfl none _ _ p q).trans ?_
  refine Finset.sum_congr rfl fun k _ => ?_
  rw [shapeCast_self]
  rfl

/-- The block index maps over the grid: point t takes rows 2000 t … 2000 t + 1999 of the features and of the result, and
    the whole weight matrix. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is entry (2000 t + p, k) of the feature array. -/
theorem feat0_apply (c : Dev nD) (t : Fin cfg0.N) (p : Fin 2000) (k : Fin 128) (r : Fin 50000) (hr : r.val = 2000 * t.val + p.val) :
    (iblk0 V c 0 t : Vec Ideal S2000x128 .f32) (ix2 p k) = (V c main_arg0 : S50000x128.Idx → EReal) (ix2 r k) := by
  obtain ⟨e0, e1, -⟩ := index0 t
  unfold iblk0
  rw [View.read_apply]
  show V c main_arg0 _ = V c main_arg0 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- The weight window's block at every point is the weight matrix. -/
theorem weight0_apply (c : Dev nD) (t : Fin cfg0.N) (k : Fin 128) (q : Fin 128) :
    (iblk0 V c 1 t : Vec Ideal S128x128 .f32) (ix2 k q) = (V c main_v31 : S128x128.Idx → EReal) (ix2 k q) := by
  obtain ⟨-, -, e2, e3, -⟩ := index0 t
  unfold iblk0
  rw [View.read_apply]
  show V c main_v31 _ = V c main_v31 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- What point t writes back is block t of the product. -/
theorem flushed0 (c : Dev nD) (t : Fin cfg0.N) :
    (dat0 (F := Ideal) V c).flushed 2 t
      = ((cfg0.win 2).blk t).view.read (Elt Ideal) (Gcn.lin (V c main_arg0) (V c main_v31)) := by
  show (cfg0.win 2).cut (grid0.coords t) ((dat0 V c).after 2 t) = _
  rw [after0_2]
  unfold out0_2
  rw [View.canon_unit_zero origin0]
  simp only [View.ld_unit_zero (S := S2000x128) origin0, View.ld_unit_zero (S := S128x128) origin0]
  obtain ⟨-, -, -, -, e4, e5⟩ := index0 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored0_apply (iblk0 V c 0 t) (iblk0 V c 1 t) p q).trans ?_
  rw [View.read_apply]
  have hemb : ((cfg0.win 2).blk t).view.emb (ix2 p q) = (ix2 (⟨2000 * t.val + p.val, by omega⟩ : Fin 50000) q : S50000x128.Idx) := by
    funext a
    apply Fin.ext
    match a with
    | ⟨0, _⟩ => show win0_2.index t 0 * 2000 + 1 * p.val = 2000 * t.val + p.val; rw [e4]; omega
    | ⟨1, _⟩ => show win0_2.index t 1 * 128 + 1 * q.val = q.val; rw [e5]; omega
  rw [hemb]
  show _ = Gcn.linAt (V c main_arg0) (V c main_v31) ⟨2000 * t.val + p.val, _⟩ q
  unfold Gcn.linAt
  refine Finset.sum_congr rfl fun k _ => ?_
  rw [feat0_apply V c t p k ⟨2000 * t.val + p.val, by omega⟩ rfl, weight0_apply V c t k q]

/-- An index of the result array is in point t's block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

theorem final0 (c : Dev nD) :
    (dat0 (F := Ideal) V c).arrAt 2 cfg0.N = Gcn.lin (V c main_arg0) (V c main_v31) :=
  (dat0 (F := Ideal) V c).arrAt_eq_of_cover 2 (Gcn.lin (V c main_arg0) (V c main_v31)) (fun t _ => flushed0 V c t) fun i => by
    have h0 : (i 0).val < 50000 := (i 0).isLt
    have h1 : (i 1).val < 128 := (i 1).isLt
    let t : Fin cfg0.N := ⟨(i 0).val / 2000, by show _ < 25; omega⟩
    obtain ⟨-, -, -, -, e4, e5⟩ := index0 t
    have et : t.val = (i 0).val / 2000 := rfl
    refine ⟨t, flush0_2 t, ?_⟩
    rw [mem_block0]
    intro a
    match a with
    | ⟨0, _⟩ => show win0_2.index t (0 : Fin 2) * 2000 ≤ (i 0).val ∧ (i 0).val < win0_2.index t (0 : Fin 2) * 2000 + 2000; rw [e4, et]; omega
    | ⟨1, _⟩ => show win0_2.index t (1 : Fin 2) * 128 ≤ (i 1).val ∧ (i 1).val < win0_2.index t (1 : Fin 2) * 128 + 128; rw [e5]; omega

end Cert.Gcn.Regions

end
-- ==== Proof.Final1.lean ====
/-
  Region 1: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibColumns
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin1 : (![0, 0] : Fin 2 → Nat) = fun _ => 0 := funext fun a => by fin_cases a <;> rfl

/-- What the body stores at (p, q): the aggregated message, plus the node's own projected features scaled by the node's
    factor, plus the bias of column q. -/
theorem stored1_apply (x0 : Vec Ideal S2000x128 .f32) (x2 : Vec Ideal S2000x1 .f32) (x1 : Vec Ideal S2000x128 .f32)
    (x3 : Vec Ideal S1x128 .f32) (p : Fin 2000) (q : Fin 128) :
    k1_pay1 (F := Ideal) x0 x2 x1 x3 (ix2 p q) = x0 (ix2 p q) + x2 (ix2 p 0) * x1 (ix2 p q) + x3 (ix2 0 q) := by
  unfold k1_pay1
  show shapeCast S2000x128 x0 _ (ix2 p q)
      + broadcastTo S2000x128 (shapeCast S2000x1 x2 _) _ (ix2 p q) * shapeCast S2000x128 x1 _ (ix2 p q)
      + broadcastTo S2000x128 (shapeCast S1x128 x3 _) _ (ix2 p q) = _
  rw [broadcastTo_a1_ab_apply, broadcastTo_1b_ab_apply]
  simp only [shapeCast_self]

/-- The block index maps over the grid: point t takes rows 2000 t … 2000 t + 1999 of the three node arrays and of the
    result, and the whole bias row. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of the block of aggregated messages at point t is entry (2000 t + p, q) of their array. -/
theorem agg1_apply (c : Dev nD) (t : Fin cfg1.N) (p : Fin 2000) (q : Fin 128) (r : Fin 50000) (hr : r.val = 2000 * t.val + p.val) :
    (iblk1 V c 0 t : Vec Ideal S2000x128 .f32) (ix2 p q) = (V c main_v45 : S50000x128.Idx → EReal) (ix2 r q) := by
  obtain ⟨e0, e1, -⟩ := index1 t
  unfold iblk1
  rw [View.read_apply]
  show V c main_v45 _ = V c main_v45 _
  congr 1
  funext a
  apply Fin.ext
  match a with
  | ⟨0, _⟩ => show win1_0.index t 0 * 2000 + 1 * p.val = r.val; rw [e0, hr]; omega
  | ⟨1, _⟩ => show win1_0.index t 1 * 128 + 1 * q.val = q.val; rw [e1]; omega

/-- Entry (p, q) of the block of projected features at point t is entry (2000 t + p, q) of their array. -/
theorem self1_apply (c : Dev nD) (t : Fin cfg1.N) (p : Fin 2000) (q : Fin 128) (r : Fin 50000) (hr : r.val = 2000 * t.val + p.val) :
    (iblk1 V c 1 t : Vec Ideal S2000x128 .f32) (ix2 p q) = (V c main_v32 : S50000x128.Idx → EReal) (ix2 r q) := by
  obtain ⟨-, -, e2, e3, -⟩ := index1 t
  unfold iblk1
  rw [View.read_apply]
  show V c main_v32 _ = V c main_v32 _
  congr 1
  funext a
  apply Fin.ext
  match a with
  | ⟨0, _⟩ => show win1_1.index t 0 * 2000 + 1 * p.val = r.val; rw [e2, hr]; omega
  | ⟨1, _⟩ => show win1_1.index t 1 * 128 + 1 * q.val = q.val; rw [e3]; omega

/-- Entry p of the block of node factors at point t is entry 2000 t + p of their column. -/
theorem scale1_apply (c : Dev nD) (t : Fin cfg1.N) (p : Fin 2000) (r : Fin 50000) (hr : r.val = 2000 * t.val + p.val) :
    (iblk1 V c 2 t : Vec Ideal S2000x1 .f32) (ix2 p 0) = (V c main_v27 : S50000x1.Idx → EReal) (ix2 r 0) := by
  obtain ⟨-, -, -, -, e4, e5, -⟩ := index1 t
  unfold iblk1
  rw [View.read_apply]
  show V c main_v27 _ = V c main_v27 _
  congr 1
  funext a
  apply Fin.ext
  match a with
  | ⟨0, _⟩ => show win1_2.index t 0 * 2000 + 1 * p.val = r.val; rw [e4, hr]; omega
  | ⟨1, _⟩ => show win1_2.index t 1 * 1 + 1 * 0 = 0; rw [e5]

/-- The bias window's block at every point is the bias row. -/
theorem bias1_apply (c : Dev nD) (t : Fin cfg1.N) (q : Fin 128) :
    (iblk1 V c 3 t : Vec Ideal S1x128 .f32) (ix2 0 q) = (V c main_v46 : S1x128.Idx → EReal) (ix2 0 q) := by
  obtain ⟨-, -, -, -, -, -, e6, e7, -⟩ := index1 t
  unfold iblk1
  rw [View.read_apply]
  show V c main_v46 _ = V c main_v46 _
  congr 1
  funext a
  apply Fin.ext
  match a with
  | ⟨0, _⟩ => show win1_3.index t 0 * 1 + 1 * 0 = 0; rw [e6]
  | ⟨1, _⟩ => show win1_3.index t 1 * 128 + 1 * q.val = q.val; rw [e7]; omega

/-- What point t writes back is block t of the first layer's combine. -/
theorem flushed1 (c : Dev nD) (t : Fin cfg1.N) :
    (dat1 (F := Ideal) V c).flushed 4 t
      = ((cfg1.win 4).blk t).view.read (Elt Ideal) (Gcn.combine (V c main_v45) (V c main_v32) (V c main_v27) (V c main_v46)) := by
  show (cfg1.win 4).cut (grid1.coords t) ((dat1 V c).after 4 t) = _
  rw [after1_4]
  unfold out1_4
  rw [View.canon_unit_zero origin1]
  simp only [View.ld_unit_zero (S := S2000x128) origin1, View.ld_unit_zero (S := S2000x1) origin1, View.ld_unit_zero (S := S1x128) origin1]
  obtain ⟨-, -, -, -, -, -, -, -, e8, e9⟩ := index1 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored1_apply (iblk1 V c 0 t) (iblk1 V c 2 t) (iblk1 V c 1 t) (iblk1 V c 3 t) p q).trans ?_
  rw [View.read_apply]
  have hemb : ((cfg1.win 4).blk t).view.emb (ix2 p q) = (ix2 (⟨2000 * t.val + p.val, by omega⟩ : Fin 50000) q : S50000x128.Idx) := by
    funext a
    apply Fin.ext
    match a with
    | ⟨0, _⟩ => show win1_4.index t 0 * 2000 + 1 * p.val = 2000 * t.val + p.val; rw [e8]; omega
    | ⟨1, _⟩ => show win1_4.index t 1 * 128 + 1 * q.val = q.val; rw [e9]; omega
  rw [hemb]
  show _ = Gcn.combineAt (V c main_v45) (V c main_v32) (V c main_v27) (V c main_v46) ⟨2000 * t.val + p.val, _⟩ q
  unfold Gcn.combineAt
  rw [agg1_apply V c t p q ⟨2000 * t.val + p.val, by omega⟩ rfl, self1_apply V c t p q ⟨2000 * t.val + p.val, by omega⟩ rfl,
    scale1_apply V c t p ⟨2000 * t.val + p.val, by omega⟩ rfl, bias1_apply V c t q]

/-- An index of the result array is in point t's block iff each coordinate is in the block's range on its axis. -/
theorem mem_block1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v47).slice (win1_4.rect t)).set ↔ _
  rw [View.set_slice_whole, Rect.mem_set_unit]
  exact Iff.rfl

theorem final1 (c : Dev nD) :
    (dat1 (F := Ideal) V c).arrAt 4 cfg1.N = Gcn.combine (V c main_v45) (V c main_v32) (V c main_v27) (V c main_v46) :=
  (dat1 (F := Ideal) V c).arrAt_eq_of_cover 4 (Gcn.combine (V c main_v45) (V c main_v32) (V c main_v27) (V c main_v46)) (fun t _ => flushed1 V c t) fun i => by
    have h0 : (i 0).val < 50000 := (i 0).isLt
    have h1 : (i 1).val < 128 := (i 1).isLt
    let t : Fin cfg1.N := ⟨(i 0).val / 2000, by show _ < 25; omega⟩
    obtain ⟨-, -, -, -, -, -, -, -, e8, e9⟩ := index1 t
    have et : t.val = (i 0).val / 2000 := rfl
    refine ⟨t, flush1_4 t, ?_⟩
    rw [mem_block1]
    intro a
    match a with
    | ⟨0, _⟩ => show win1_4.index t (0 : Fin 2) * 2000 ≤ (i 0).val ∧ (i 0).val < win1_4.index t (0 : Fin 2) * 2000 + 2000; rw [e8, et]; omega
    | ⟨1, _⟩ => show win1_4.index t (1 : Fin 2) * 128 ≤ (i 1).val ∧ (i 1).val < win1_4.index t (1 : Fin 2) * 128 + 128; rw [e9]; omega

end Cert.Gcn.Regions

end
-- ==== Proof.KeepEdges.lean ====
/-
  Buffers that the program computes once and only reads afterwards keep their contents across the later
  segments: the edge lists' two rows, the per-edge normalisation and the per-node self scale.  Each step is either a
  stretch of host operations none of which writes the buffer, or a kernel launch that does not write it (it is not
  among the launch's arrays, or it is one of its inputs, which a launch leaves as found).
-/
import proofs.«179305_j15616501088588_1_alg».proof.Proof.Gen.KernelIdeal.Frame

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

theorem keep_main_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := Proc.devRef .tc main_v1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v1_9_4 (c : Dev nD) : W9 m ρ c (Proc.devRef .tc main_v1) = W4 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v1_14_9 (c : Dev nD) : W14 m ρ c (Proc.devRef .tc main_v1) = W9 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := StableHlo.after_of_forall_not_mem (b := Proc.devRef .tc main_v1) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v1_19_14 (c : Dev nD) : W19 m ρ c (Proc.devRef .tc main_v1) = W14 m ρ c (Proc.devRef .tc main_v1) :=
  calc W19 m ρ c (Proc.devRef .tc main_v1)
    _ = W18 m ρ c (Proc.devRef .tc main_v1) := W19_of_ne m ρ c main_v1 (by decide)
    _ = W17 m ρ c (Proc.devRef .tc main_v1) := StableHlo.after_of_forall_not_mem (b := Proc.devRef .tc main_v1) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v1) := StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v1) := W16_of_ne m ρ c main_v1 (by decide)
    _ = W14 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_9_4 (c : Dev nD) : W9 m ρ c (Proc.devRef .tc main_v3) = W4 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_14_9 (c : Dev nD) : W14 m ρ c (Proc.devRef .tc main_v3) = W9 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := StableHlo.after_of_forall_not_mem (b := Proc.devRef .tc main_v3) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_19_14 (c : Dev nD) : W19 m ρ c (Proc.devRef .tc main_v3) = W14 m ρ c (Proc.devRef .tc main_v3) :=
  calc W19 m ρ c (Proc.devRef .tc main_v3)
    _ = W18 m ρ c (Proc.devRef .tc main_v3) := W19_of_ne m ρ c main_v3 (by decide)
    _ = W17 m ρ c (Proc.devRef .tc main_v3) := StableHlo.after_of_forall_not_mem (b := Proc.devRef .tc main_v3) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v3) := W16_of_ne m ρ c main_v3 (by decide)
    _ = W14 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v25_4_1 (c : Dev nD) : W4 m ρ c (Proc.devRef .tc main_v25) = W1 m ρ c (Proc.devRef .tc main_v25) :=
  calc W4 m ρ c (Proc.devRef .tc main_v25)
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := StableHlo.after_of_forall_not_mem (b := Proc.devRef .tc main_v25) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v25_9_4 (c : Dev nD) : W9 m ρ c (Proc.devRef .tc main_v25) = W4 m ρ c (Proc.devRef .tc main_v25) :=
  calc W9 m ρ c (Proc.devRef .tc main_v25)
    _ = W8 m ρ c (Proc.devRef .tc main_v25) := W9_of_ne m ρ c main_v25 (by decide)
    _ = W7 m ρ c (Proc.devRef .tc main_v25) := StableHlo.after_of_forall_not_mem (b := Proc.devRef .tc main_v25) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v25) := StableHlo.after_of_forall_not_mem (b := Proc.devRef .tc main_v25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v25) := W6_of_ne m ρ c main_v25 (by decide)
    _ = W4 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v25_14_9 (c : Dev nD) : W14 m ρ c (Proc.devRef .tc main_v25) = W9 m ρ c (Proc.devRef .tc main_v25) :=
  calc W14 m ρ c (Proc.devRef .tc main_v25)
    _ = W13 m ρ c (Proc.devRef .tc main_v25) := W14_of_ne m ρ c main_v25 (by decide)
    _ = W12 m ρ c (Proc.devRef .tc main_v25) := StableHlo.after_of_forall_not_mem (b := Proc.devRef .tc main_v25) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v25) := StableHlo.after_of_forall_not_mem (b := Proc.devRef .tc main_v25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v25) := W11_of_ne m ρ c main_v25 (by decide)
    _ = W9 m ρ c (Proc.devRef .tc main_v25) := StableHlo.after_of_forall_not_mem (b := Proc.devRef .tc main_v25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v25_19_14 (c : Dev nD) : W19 m ρ c (Proc.devRef .tc main_v25) = W14 m ρ c (Proc.devRef .tc main_v25) :=
  calc W19 m ρ c (Proc.devRef .tc main_v25)
    _ = W18 m ρ c (Proc.devRef .tc main_v25) := W19_of_ne m ρ c main_v25 (by decide)
    _ = W17 m ρ c (Proc.devRef .tc main_v25) := StableHlo.after_of_forall_not_mem (b := Proc.devRef .tc main_v25) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v25) := StableHlo.after_of_forall_not_mem (b := Proc.devRef .tc main_v25) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v25) := W16_of_ne m ρ c main_v25 (by decide)
    _ = W14 m ρ c (Proc.devRef .tc main_v25) := StableHlo.after_of_forall_not_mem (b := Proc.devRef .tc main_v25) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_4_1 (c : Dev nD) : W4 m ρ c (Proc.devRef .tc main_v27) = W1 m ρ c (Proc.devRef .tc main_v27) :=
  calc W4 m ρ c (Proc.devRef .tc main_v27)
    _ = W3 m ρ c (Proc.devRef .tc main_v27) := W4_of_ne m ρ c main_v27 (by decide)
    _ = W2 m ρ c (Proc.devRef .tc main_v27) := StableHlo.after_of_forall_not_mem (b := Proc.devRef .tc main_v27) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := StableHlo.after_of_forall_not_mem (b := Proc.devRef .tc main_v27) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_9_4 (c : Dev nD) : W9 m ρ c (Proc.devRef .tc main_v27) = W4 m ρ c (Proc.devRef .tc main_v27) :=
  calc W9 m ρ c (Proc.devRef .tc main_v27)
    _ = W8 m ρ c (Proc.devRef .tc main_v27) := W9_of_ne m ρ c main_v27 (by decide)
    _ = W7 m ρ c (Proc.devRef .tc main_v27) := StableHlo.after_of_forall_not_mem (b := Proc.devRef .tc main_v27) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v27) := StableHlo.after_of_forall_not_mem (b := Proc.devRef .tc main_v27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v27) := (W6_arr m ρ c 2).trans (((dat1 (V5 m ρ) c).arrAt_in 2 rfl _).trans (A_eq1 (V5 m ρ) c 2))
    _ = W4 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_14_9 (c : Dev nD) : W14 m ρ c (Proc.devRef .tc main_v27) = W9 m ρ c (Proc.devRef .tc main_v27) :=
  calc W14 m ρ c (Proc.devRef .tc main_v27)
    _ = W13 m ρ c (Proc.devRef .tc main_v27) := W14_of_ne m ρ c main_v27 (by decide)
    _ = W12 m ρ c (Proc.devRef .tc main_v27) := StableHlo.after_of_forall_not_mem (b := Proc.devRef .tc main_v27) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v27) := StableHlo.after_of_forall_not_mem (b := Proc.devRef .tc main_v27) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v27) := (W11_arr m ρ c 2).trans (((dat3 (V10 m ρ) c).arrAt_in 2 rfl _).trans (A_eq3 (V10 m ρ) c 2))
    _ = W9 m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_19_14 (c : Dev nD) : W19 m ρ c (Proc.devRef .tc main_v27) = W14 m ρ c (Proc.devRef .tc main_v27) :=
  calc W19 m ρ c (Proc.devRef .tc main_v27)
    _ = W18 m ρ c (Proc.devRef .tc main_v27) := W19_of_ne m ρ c main_v27 (by decide)
    _ = W17 m ρ c (Proc.devRef .tc main_v27) := StableHlo.after_of_forall_not_mem (b := Proc.devRef .tc main_v27) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v27) := StableHlo.after_of_forall_not_mem (b := Proc.devRef .tc main_v27) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v27) := (W16_arr m ρ c 2).trans (((dat5 (V15 m ρ) c).arrAt_in 2 rfl _).trans (A_eq5 (V15 m ρ) c 2))
    _ = W14 m ρ c (Proc.devRef .tc main_v27) := StableHlo.after_of_forall_not_mem (b := Proc.devRef .tc main_v27) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_5_4 (c : Dev nD) : W5 m ρ c (Proc.devRef .tc main_v27) = W4 m ρ c (Proc.devRef .tc main_v27) :=
  calc W5 m ρ c (Proc.devRef .tc main_v27)
    _ = W4 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_10_9 (c : Dev nD) : W10 m ρ c (Proc.devRef .tc main_v27) = W9 m ρ c (Proc.devRef .tc main_v27) :=
  calc W10 m ρ c (Proc.devRef .tc main_v27)
    _ = W9 m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_15_14 (c : Dev nD) : W15 m ρ c (Proc.devRef .tc main_v27) = W14 m ρ c (Proc.devRef .tc main_v27) :=
  calc W15 m ρ c (Proc.devRef .tc main_v27)
    _ = W14 m ρ c (Proc.devRef .tc main_v27) := StableHlo.after_of_forall_not_mem (b := Proc.devRef .tc main_v27) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_20_19 (c : Dev nD) : W20 m ρ c (Proc.devRef .tc main_v27) = W19 m ρ c (Proc.devRef .tc main_v27) :=
  calc W20 m ρ c (Proc.devRef .tc main_v27)
    _ = W19 m ρ c (Proc.devRef .tc main_v27) := StableHlo.after_of_forall_not_mem (b := Proc.devRef .tc main_v27) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.KeepLayers.lean ====
/-
  A layer's output is read again two launches later as the residual skip, and a dense step's output both by the
  host's gather and by the combine launch: neither is written in between (a launch leaves its inputs as found).
-/
import proofs.«179305_j15616501088588_1_alg».proof.Proof.Gen.KernelIdeal.Frame

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

theorem keep_main_v32_5_4 (c : Dev nD) : W5 m ρ c (Proc.devRef .tc main_v32) = W4 m ρ c (Proc.devRef .tc main_v32) :=
  calc W5 m ρ c (Proc.devRef .tc main_v32)
    _ = W4 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v47_8_6 (c : Dev nD) : W8 m ρ c (Proc.devRef .tc main_v47) = W6 m ρ c (Proc.devRef .tc main_v47) :=
  calc W8 m ρ c (Proc.devRef .tc main_v47)
    _ = W7 m ρ c (Proc.devRef .tc main_v47) := StableHlo.after_of_forall_not_mem (b := Proc.devRef .tc main_v47) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v47) := StableHlo.after_of_forall_not_mem (b := Proc.devRef .tc main_v47) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v47_10_8 (c : Dev nD) : W10 m ρ c (Proc.devRef .tc main_v47) = W8 m ρ c (Proc.devRef .tc main_v47) :=
  calc W10 m ρ c (Proc.devRef .tc main_v47)
    _ = W9 m ρ c (Proc.devRef .tc main_v47) := StableHlo.after_of_forall_not_mem (b := Proc.devRef .tc main_v47) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v47) := (W9_arr m ρ c 0).trans (((dat2 (V8 m ρ) c).arrAt_in 0 rfl _).trans (A_eq2 (V8 m ρ) c 0))

theorem keep_main_v52_10_9 (c : Dev nD) : W10 m ρ c (Proc.devRef .tc main_v52) = W9 m ρ c (Proc.devRef .tc main_v52) :=
  calc W10 m ρ c (Proc.devRef .tc main_v52)
    _ = W9 m ρ c (Proc.devRef .tc main_v52) := StableHlo.after_of_forall_not_mem (b := Proc.devRef .tc main_v52) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v67_13_11 (c : Dev nD) : W13 m ρ c (Proc.devRef .tc main_v67) = W11 m ρ c (Proc.devRef .tc main_v67) :=
  calc W13 m ρ c (Proc.devRef .tc main_v67)
    _ = W12 m ρ c (Proc.devRef .tc main_v67) := StableHlo.after_of_forall_not_mem (b := Proc.devRef .tc main_v67) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v67) := StableHlo.after_of_forall_not_mem (b := Proc.devRef .tc main_v67) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v67_15_13 (c : Dev nD) : W15 m ρ c (Proc.devRef .tc main_v67) = W13 m ρ c (Proc.devRef .tc main_v67) :=
  calc W15 m ρ c (Proc.devRef .tc main_v67)
    _ = W14 m ρ c (Proc.devRef .tc main_v67) := StableHlo.after_of_forall_not_mem (b := Proc.devRef .tc main_v67) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v67) := (W14_arr m ρ c 0).trans (((dat4 (V13 m ρ) c).arrAt_in 0 rfl _).trans (A_eq4 (V13 m ρ) c 0))

theorem keep_main_v72_15_14 (c : Dev nD) : W15 m ρ c (Proc.devRef .tc main_v72) = W14 m ρ c (Proc.devRef .tc main_v72) :=
  calc W15 m ρ c (Proc.devRef .tc main_v72)
    _ = W14 m ρ c (Proc.devRef .tc main_v72) := StableHlo.after_of_forall_not_mem (b := Proc.devRef .tc main_v72) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v87_18_16 (c : Dev nD) : W18 m ρ c (Proc.devRef .tc main_v87) = W16 m ρ c (Proc.devRef .tc main_v87) :=
  calc W18 m ρ c (Proc.devRef .tc main_v87)
    _ = W17 m ρ c (Proc.devRef .tc main_v87) := StableHlo.after_of_forall_not_mem (b := Proc.devRef .tc main_v87) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v87) := StableHlo.after_of_forall_not_mem (b := Proc.devRef .tc main_v87) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v87_20_18 (c : Dev nD) : W20 m ρ c (Proc.devRef .tc main_v87) = W18 m ρ c (Proc.devRef .tc main_v87) :=
  calc W20 m ρ c (Proc.devRef .tc main_v87)
    _ = W19 m ρ c (Proc.devRef .tc main_v87) := StableHlo.after_of_forall_not_mem (b := Proc.devRef .tc main_v87) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v87) := (W19_arr m ρ c 0).trans (((dat6 (V18 m ρ) c).arrAt_in 0 rfl _).trans (A_eq6 (V18 m ρ) c 0))

theorem keep_main_v92_20_19 (c : Dev nD) : W20 m ρ c (Proc.devRef .tc main_v92) = W19 m ρ c (Proc.devRef .tc main_v92) :=
  calc W20 m ρ c (Proc.devRef .tc main_v92)
    _ = W19 m ρ c (Proc.devRef .tc main_v92) := StableHlo.after_of_forall_not_mem (b := Proc.devRef .tc main_v92) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v107_22_21 (c : Dev nD) : W22 m ρ c (Proc.devRef .tc main_v107) = W21 m ρ c (Proc.devRef .tc main_v107) :=
  calc W22 m ρ c (Proc.devRef .tc main_v107)
    _ = W21 m ρ c (Proc.devRef .tc main_v107) := StableHlo.after_of_forall_not_mem (b := Proc.devRef .tc main_v107) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.KeepArgs.lean ====
/-
  No host operation and no launch writes an argument array: at the boundary where it is first read, each still
  holds its launch contents.
-/
import proofs.«179305_j15616501088588_1_alg».proof.Proof.Gen.KernelIdeal.Frame

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

theorem keep_main_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg4_6_0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg5_9_0 (c : Dev nD) : W9 m ρ c (Proc.devRef .tc main_arg5) = W0 m ρ c (Proc.devRef .tc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_11_0 (c : Dev nD) : W11 m ρ c (Proc.devRef .tc main_arg6) = W0 m ρ c (Proc.devRef .tc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg7_14_0 (c : Dev nD) : W14 m ρ c (Proc.devRef .tc main_arg7) = W0 m ρ c (Proc.devRef .tc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_16_0 (c : Dev nD) : W16 m ρ c (Proc.devRef .tc main_arg8) = W0 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg9_19_0 (c : Dev nD) : W19 m ρ c (Proc.devRef .tc main_arg9) = W0 m ρ c (Proc.devRef .tc main_arg9) :=
  calc W19 m ρ c (Proc.devRef .tc main_arg9)
    _ = W18 m ρ c (Proc.devRef .tc main_arg9) := W19_of_ne m ρ c main_arg9 (by decide)
    _ = W17 m ρ c (Proc.devRef .tc main_arg9) := StableHlo.after_of_forall_not_mem (b := Proc.devRef .tc main_arg9) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg10_21_0 (c : Dev nD) : W21 m ρ c (Proc.devRef .tc main_arg10) = W0 m ρ c (Proc.devRef .tc main_arg10) :=
  calc W21 m ρ c (Proc.devRef .tc main_arg10)
    _ = W20 m ρ c (Proc.devRef .tc main_arg10) := W21_of_ne m ρ c main_arg10 (by decide)
    _ = W19 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_arg10) := W19_of_ne m ρ c main_arg10 (by decide)
    _ = W17 m ρ c (Proc.devRef .tc main_arg10) := StableHlo.after_of_forall_not_mem (b := Proc.devRef .tc main_arg10) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg11_21_0 (c : Dev nD) : W21 m ρ c (Proc.devRef .tc main_arg11) = W0 m ρ c (Proc.devRef .tc main_arg11) :=
  calc W21 m ρ c (Proc.devRef .tc main_arg11)
    _ = W20 m ρ c (Proc.devRef .tc main_arg11) := W21_of_ne m ρ c main_arg11 (by decide)
    _ = W19 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_arg11) := W19_of_ne m ρ c main_arg11 (by decide)
    _ = W17 m ρ c (Proc.devRef .tc main_arg11) := StableHlo.after_of_forall_not_mem (b := Proc.devRef .tc main_arg11) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.ChainA.lean ====
/-
  The first layer.  What the host computes before the first launch — the two rows of the edge list, the per-edge
  normalisation, the per-node self scale and the first weight matrix divided by its norm and transposed — is, buffer by
  buffer, the reference's own stage of the arguments; the first dense launch then leaves the reference's matrix
  product, the host's gather and scatter the reference's aggregation, and the first combine launch the reference's
  first layer.
-/
import proofs.«179305_j15616501088588_1_alg».proof.Proof.Gen.KernelIdeal.Frame
import proofs.«179305_j15616501088588_1_alg».proof.Proof.Gen.ReferenceIdeal.Read
import proofs.«179305_j15616501088588_1_alg».proof.Proof.Spec
import proofs.«179305_j15616501088588_1_alg».proof.Proof.Bridge
import proofs.«179305_j15616501088588_1_alg».proof.Proof.Final0
import proofs.«179305_j15616501088588_1_alg».proof.Proof.Final1
import proofs.«179305_j15616501088588_1_alg».proof.Proof.KeepEdges
import proofs.«179305_j15616501088588_1_alg».proof.Proof.KeepLayers
import proofs.«179305_j15616501088588_1_alg».proof.Proof.KeepArgs
import Idealize.ShloMosaic.Lib.StableHlo.Run
import Idealize.ShloMosaic.PureOps.Ideal

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The edge list's first row (the sources) after the first host stretch. -/
theorem W1_main_v1 (c : Dev nD) : W1 m ρ c (Proc.devRef .tc main_v1) = (Cert.ReferenceIdeal.Read.val_main_v1 (F := Ideal) (m ((c : Thread nD τ).loc main_arg1))) := by
  after_results_simp <;> rfl
/-- The edge list's second row (the targets). -/
theorem W1_main_v3 (c : Dev nD) : W1 m ρ c (Proc.devRef .tc main_v3) = (Cert.ReferenceIdeal.Read.val_main_v3 (F := Ideal) (m ((c : Thread nD τ).loc main_arg1))) := by
  after_results_simp <;> rfl
/-- The per-edge normalisation: the product of the inverse-root degrees of an edge's two ends. -/
theorem W1_main_v25 (c : Dev nD) : W1 m ρ c (Proc.devRef .tc main_v25) = (Cert.ReferenceIdeal.Read.val_main_v30 (F := Ideal) (m ((c : Thread nD τ).loc main_arg1))) := by
  after_results_simp <;> rfl
/-- The per-node self scale, the squared inverse-root degree, as a column. -/
theorem W1_main_v27 (c : Dev nD) : W1 m ρ c (Proc.devRef .tc main_v27) = shapeCast S50000x1 (Cert.ReferenceIdeal.Read.val_main_v44 (F := Ideal) (m ((c : Thread nD τ).loc main_arg1))) shapeCasts_S50000_S50000x1 := by
  after_results_simp <;> rfl

/-- The node features as the first dense launch finds them. -/
theorem W3_main_arg0 (c : Dev nD) : W3 m ρ c (Proc.devRef .tc main_arg0) = (m ((c : Thread nD τ).loc main_arg0)) := by
  after_results_simp <;> rfl
/-- The first weight matrix divided by its norm, transposed. -/
theorem W3_main_v31 (c : Dev nD) : W3 m ρ c (Proc.devRef .tc main_v31) = (Cert.ReferenceIdeal.Read.val_main_v7 (F := Ideal) (m ((c : Thread nD τ).loc main_arg2))) := by
  after_results_simp <;> rfl
/-- Dense launch 0 leaves the reference's matrix product of layer 0. -/
theorem W4_main_v32 (c : Dev nD) : W4 m ρ c (Proc.devRef .tc main_v32) = (Cert.ReferenceIdeal.Read.val_main_v8 (F := Ideal) (m ((c : Thread nD τ).loc main_arg0)) (m ((c : Thread nD τ).loc main_arg2))) := by
  refine (W4_arr m ρ c 2).trans ((Cert.Gcn.Regions.final0 (V3 m ρ) c).trans ?_)
  show Cert.Gcn.lin (W3 m ρ c (Proc.devRef .tc main_arg0)) (W3 m ρ c (Proc.devRef .tc main_v31)) = _
  rw [W3_main_arg0 m ρ c, W3_main_v31 m ρ c]
  exact (Cert.Gcn.host_lin _ rfl _ _).symm
theorem W4_main_v1 (c : Dev nD) : W4 m ρ c (Proc.devRef .tc main_v1) = (Cert.ReferenceIdeal.Read.val_main_v1 (F := Ideal) (m ((c : Thread nD τ).loc main_arg1))) :=
  (keep_main_v1_4_1 m ρ c).trans (W1_main_v1 m ρ c)
theorem W4_main_v3 (c : Dev nD) : W4 m ρ c (Proc.devRef .tc main_v3) = (Cert.ReferenceIdeal.Read.val_main_v3 (F := Ideal) (m ((c : Thread nD τ).loc main_arg1))) :=
  (keep_main_v3_4_1 m ρ c).trans (W1_main_v3 m ρ c)
theorem W4_main_v25 (c : Dev nD) : W4 m ρ c (Proc.devRef .tc main_v25) = (Cert.ReferenceIdeal.Read.val_main_v30 (F := Ideal) (m ((c : Thread nD τ).loc main_arg1))) :=
  (keep_main_v25_4_1 m ρ c).trans (W1_main_v25 m ρ c)
theorem W4_main_v27 (c : Dev nD) : W4 m ρ c (Proc.devRef .tc main_v27) = shapeCast S50000x1 (Cert.ReferenceIdeal.Read.val_main_v44 (F := Ideal) (m ((c : Thread nD τ).loc main_arg1))) shapeCasts_S50000_S50000x1 :=
  (keep_main_v27_4_1 m ρ c).trans (W1_main_v27 m ρ c)
/-- The host's gather along the sources, scaling by the per-edge normalisation and scatter-add along the targets
    is the reference's aggregation of layer 0. -/
theorem W5_main_v45 (c : Dev nD) : W5 m ρ c (Proc.devRef .tc main_v45) = (Cert.ReferenceIdeal.Read.val_main_v43 (F := Ideal) (m ((c : Thread nD τ).loc main_arg0)) (m ((c : Thread nD τ).loc main_arg1)) (m ((c : Thread nD τ).loc main_arg2))) := by
  after_results_simp
  rw [W4_main_v32 m ρ c, W4_main_v1 m ρ c, W4_main_v3 m ρ c, W4_main_v25 m ρ c]
  rfl
theorem W5_main_v32 (c : Dev nD) : W5 m ρ c (Proc.devRef .tc main_v32) = (Cert.ReferenceIdeal.Read.val_main_v8 (F := Ideal) (m ((c : Thread nD τ).loc main_arg0)) (m ((c : Thread nD τ).loc main_arg2))) :=
  (keep_main_v32_5_4 m ρ c).trans (W4_main_v32 m ρ c)
theorem W5_main_v27 (c : Dev nD) : W5 m ρ c (Proc.devRef .tc main_v27) = shapeCast S50000x1 (Cert.ReferenceIdeal.Read.val_main_v44 (F := Ideal) (m ((c : Thread nD τ).loc main_arg1))) shapeCasts_S50000_S50000x1 :=
  (keep_main_v27_5_4 m ρ c).trans (W4_main_v27 m ρ c)
/-- The bias of layer 0 as a row. -/
theorem W5_main_v46 (c : Dev nD) : W5 m ρ c (Proc.devRef .tc main_v46) = shapeCast S1x128 (m ((c : Thread nD τ).loc main_arg3)) shapeCasts_S128_S1x128 := by
  after_results_simp
  rw [show W4 m ρ c (Proc.devRef .tc main_arg3) = (m ((c : Thread nD τ).loc main_arg3)) from keep_main_arg3_4_0 m ρ c]
  rfl
/-- Combine launch 1 leaves the reference's first layer. -/
theorem W6_main_v47 (c : Dev nD) : W6 m ρ c (Proc.devRef .tc main_v47) = (Cert.ReferenceIdeal.Read.val_main_v51 (F := Ideal) (m ((c : Thread nD τ).loc main_arg0)) (m ((c : Thread nD τ).loc main_arg1)) (m ((c : Thread nD τ).loc main_arg2)) (m ((c : Thread nD τ).loc main_arg3))) := by
  refine (W6_arr m ρ c 4).trans ((Cert.Gcn.Regions.final1 (V5 m ρ) c).trans ?_)
  show Cert.Gcn.combine (W5 m ρ c (Proc.devRef .tc main_v45)) (W5 m ρ c (Proc.devRef .tc main_v32)) (W5 m ρ c (Proc.devRef .tc main_v27)) (W5 m ρ c (Proc.devRef .tc main_v46)) = _
  rw [W5_main_v45 m ρ c, W5_main_v32 m ρ c, W5_main_v27 m ρ c, W5_main_v46 m ρ c]
  simp only [Cert.ReferenceIdeal.Read.val_main_v51, Cert.ReferenceIdeal.Read.val_main_v48, Cert.ReferenceIdeal.Read.val_main_v47, Cert.ReferenceIdeal.Read.val_main_v46, Cert.ReferenceIdeal.Read.val_main_v45, Cert.ReferenceIdeal.Read.val_main_v50, Cert.ReferenceIdeal.Read.val_main_v49]
  exact Cert.Gcn.host_combine _ _ _ _ _ _ _ _ _ _

end Cert.Gcn.Chain

end
-- ==== Proof.Final2.lean ====
/-
  Region 2: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibDotCols
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- What the body stores at (p, q): row p of its block of features times column q of the weights. -/
theorem stored2_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  refine (Cert.Lib.DotCols.matmul_cols_apply dot_S2000x128_S128x128_S2000x128_1_0_0_1_n_n rfl none _ _ p q).trans ?_
  refine Finset.sum_congr rfl fun k _ => ?_
  rw [shapeCast_self, shapeCast_self]
  rfl

/-- The block index maps over the grid: point t takes rows 2000 t … 2000 t + 1999 of the features and of the result, and
    the whole weight matrix. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the feature block at point t is entry (2000 t + p, k) of the feature array. -/
theorem feat2_apply (c : Dev nD) (t : Fin cfg2.N) (p : Fin 2000) (q : Fin 128) (r : Fin 50000) (hr : r.val = 2000 * t.val + p.val) :
    (iblk2 V c 0 t : Vec Ideal S2000x128 .f32) (ix2 p q) = (V c main_v47 : S50000x128.Idx → EReal) (ix2 r q) := by
  obtain ⟨ea, eb, -⟩ := index2 t
  unfold iblk2
  rw [View.read_apply]
  show V c main_v47 _ = V c main_v47 _
  congr 1
  funext a
  apply Fin.ext
  match a with
  | ⟨0, _⟩ => show win2_0.index t 0 * 2000 + 1 * p.val = r.val; rw [ea, hr]; omega
  | ⟨1, _⟩ => show win2_0.index t 1 * 128 + 1 * q.val = q.val; rw [eb]; omega

/-- The weight window's block at every point is the weight matrix. -/
theorem weight2_apply (c : Dev nD) (t : Fin cfg2.N) (k : Fin 128) (q : Fin 128) :
    (iblk2 V c 1 t : Vec Ideal S128x128 .f32) (ix2 k q) = (V c main_v51 : S128x128.Idx → EReal) (ix2 k q) := by
  obtain ⟨-, -, ea, eb, -⟩ := index2 t
  unfold iblk2
  rw [View.read_apply]
  show V c main_v51 _ = V c main_v51 _
  congr 1
  funext a
  apply Fin.ext
  match a with
  | ⟨0, _⟩ => show win2_1.index t 0 * 128 + 1 * k.val = k.val; rw [ea]; omega
  | ⟨1, _⟩ => show win2_1.index t 1 * 128 + 1 * q.val = q.val; rw [eb]; omega

/-- What point t writes back is block t of the product. -/
theorem flushed2 (c : Dev nD) (t : Fin cfg2.N) :
    (dat2 (F := Ideal) V c).flushed 2 t
      = ((cfg2.win 2).blk t).view.read (Elt Ideal) (Gcn.lin (V c main_v47) (V c main_v51)) := by
  show (cfg2.win 2).cut (grid2.coords t) ((dat2 V c).after 2 t) = _
  rw [after2_2]
  unfold out2_2
  rw [View.canon_unit_zero origin2]
  simp only [View.ld_unit_zero (S := S2000x128) origin2, View.ld_unit_zero (S := S128x128) origin2]
  obtain ⟨-, -, -, -, ea, eb⟩ := index2 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored2_apply (iblk2 V c 0 t) (iblk2 V c 1 t) p q).trans ?_
  rw [View.read_apply]
  have hemb : ((cfg2.win 2).blk t).view.emb (ix2 p q) = (ix2 (⟨2000 * t.val + p.val, by omega⟩ : Fin 50000) q : S50000x128.Idx) := by
    funext a
    apply Fin.ext
    match a with
    | ⟨0, _⟩ => show win2_2.index t 0 * 2000 + 1 * p.val = 2000 * t.val + p.val; rw [ea]; omega
    | ⟨1, _⟩ => show win2_2.index t 1 * 128 + 1 * q.val = q.val; rw [eb]; omega
  rw [hemb]
  show _ = Gcn.linAt (V c main_v47) (V c main_v51) ⟨2000 * t.val + p.val, _⟩ q
  unfold Gcn.linAt
  refine Finset.sum_congr rfl fun k _ => ?_
  rw [feat2_apply V c t p k ⟨2000 * t.val + p.val, by omega⟩ rfl, weight2_apply V c t k q]

/-- An index of the result array is in point t's block iff each coordinate is in the block's range on its axis. -/
theorem mem_block2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v52).slice (win2_2.rect t)).set ↔ _
  rw [View.set_slice_whole, Rect.mem_set_unit]
  exact Iff.rfl

theorem final2 (c : Dev nD) :
    (dat2 (F := Ideal) V c).arrAt 2 cfg2.N = Gcn.lin (V c main_v47) (V c main_v51) :=
  (dat2 (F := Ideal) V c).arrAt_eq_of_cover 2 (Gcn.lin (V c main_v47) (V c main_v51)) (fun t _ => flushed2 V c t) fun i => by
    have h0 : (i 0).val < 50000 := (i 0).isLt
    have h1 : (i 1).val < 128 := (i 1).isLt
    let t : Fin cfg2.N := ⟨(i 0).val / 2000, by show _ < 25; omega⟩
    obtain ⟨-, -, -, -, ea, eb⟩ := index2 t
    have et : t.val = (i 0).val / 2000 := rfl
    refine ⟨t, flush2_2 t, ?_⟩
    rw [mem_block2]
    intro a
    match a with
    | ⟨0, _⟩ => show win2_2.index t (0 : Fin 2) * 2000 ≤ (i 0).val ∧ (i 0).val < win2_2.index t (0 : Fin 2) * 2000 + 2000; rw [ea, et]; omega
    | ⟨1, _⟩ => show win2_2.index t (1 : Fin 2) * 128 ≤ (i 1).val ∧ (i 1).val < win2_2.index t (1 : Fin 2) * 128 + 128; rw [eb]; omega

end Cert.Gcn.Regions

end
-- ==== Proof.Final3.lean ====
/-
  Region 3: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibColumns
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin3 : (![0, 0] : Fin 2 → Nat) = fun _ => 0 := funext fun a => by fin_cases a <;> rfl

/-- A later layer's combine at row r and column q, written out. -/
theorem combineRelu3_apply (agg h : FVec Ideal SNxD .f32) (s : FVec Ideal SNx1 .f32) (b : FVec Ideal S1xD .f32) (skip : FVec Ideal SNxD .f32)
    (r : Fin 50000) (q : Fin 128) :
    Gcn.combineRelu agg h s b skip (ix2 r q)
      = max (agg (ix2 r q) + s (ix2 r 0) * h (ix2 r q) + b (ix2 0 q)) 0 + skip (ix2 r q) := rfl

/-- What the body stores at (p, q): the aggregated message plus the node's scaled own features plus the bias, cut below
    at zero, plus the previous layer's entry. -/
theorem stored3_apply (x0 : Vec Ideal S2000x128 .f32) (x2 : Vec Ideal S2000x1 .f32) (x1 : Vec Ideal S2000x128 .f32)
    (x3 : Vec Ideal S1x128 .f32) (x4 : Vec Ideal S2000x128 .f32) (p : Fin 2000) (q : Fin 128) :
    k3_pay1 (F := Ideal) x0 x2 x1 x3 x4 (ix2 p q)
      = max (x0 (ix2 p q) + x2 (ix2 p 0) * x1 (ix2 p q) + x3 (ix2 0 q)) 0 + x4 (ix2 p q) := by
  unfold k3_pay1
  show max (shapeCast S2000x128 x0 _ (ix2 p q)
        + broadcastTo S2000x128 (shapeCast S2000x1 x2 _) _ (ix2 p q) * shapeCast S2000x128 x1 _ (ix2 p q)
        + broadcastTo S2000x128 (shapeCast S1x128 x3 _) _ (ix2 p q)) (Ideal.ofBits .f32 0x00000000#32)
      + shapeCast S2000x128 x4 _ (ix2 p q) = _
  rw [broadcastTo_a1_ab_apply, broadcastTo_1b_ab_apply, Ideal.ofBits_zero_f32]
  simp only [shapeCast_self]

/-- The block index maps over the grid: point t takes rows 2000 t … 2000 t + 1999 of the four node arrays and of the
    result, and the whole bias row. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Entry (p, q) of the block of aggregated messages at point t is entry (2000 t + p, q) of their array. -/
theorem agg3_apply (c : Dev nD) (t : Fin cfg3.N) (p : Fin 2000) (q : Fin 128) (r : Fin 50000) (hr : r.val = 2000 * t.val + p.val) :
    (iblk3 V c 0 t : Vec Ideal S2000x128 .f32) (ix2 p q) = (V c main_v65 : S50000x128.Idx → EReal) (ix2 r q) := by
  obtain ⟨ea, eb, -⟩ := index3 t
  unfold iblk3
  rw [View.read_apply]
  show V c main_v65 _ = V c main_v65 _
  congr 1
  funext a
  apply Fin.ext
  match a with
  | ⟨0, _⟩ => show win3_0.index t 0 * 2000 + 1 * p.val = r.val; rw [ea, hr]; omega
  | ⟨1, _⟩ => show win3_0.index t 1 * 128 + 1 * q.val = q.val; rw [eb]; omega

/-- Entry (p, q) of the block of projected features at point t is entry (2000 t + p, q) of their array. -/
theorem self3_apply (c : Dev nD) (t : Fin cfg3.N) (p : Fin 2000) (q : Fin 128) (r : Fin 50000) (hr : r.val = 2000 * t.val + p.val) :
    (iblk3 V c 1 t : Vec Ideal S2000x128 .f32) (ix2 p q) = (V c main_v52 : S50000x128.Idx → EReal) (ix2 r q) := by
  obtain ⟨-, -, ea, eb, -⟩ := index3 t
  unfold iblk3
  rw [View.read_apply]
  show V c main_v52 _ = V c main_v52 _
  congr 1
  funext a
  apply Fin.ext
  match a with
  | ⟨0, _⟩ => show win3_1.index t 0 * 2000 + 1 * p.val = r.val; rw [ea, hr]; omega
  | ⟨1, _⟩ => show win3_1.index t 1 * 128 + 1 * q.val = q.val; rw [eb]; omega

/-- Entry p of the block of node factors at point t is entry 2000 t + p of their column. -/
theorem scale3_apply (c : Dev nD) (t : Fin cfg3.N) (p : Fin 2000) (r : Fin 50000) (hr : r.val = 2000 * t.val + p.val) :
    (iblk3 V c 2 t : Vec Ideal S2000x1 .f32) (ix2 p 0) = (V c main_v27 : S50000x1.Idx → EReal) (ix2 r 0) := by
  obtain ⟨-, -, -, -, ea, eb, -⟩ := index3 t
  unfold iblk3
  rw [View.read_apply]
  show V c main_v27 _ = V c main_v27 _
  congr 1
  funext a
  apply Fin.ext
  match a with
  | ⟨0, _⟩ => show win3_2.index t 0 * 2000 + 1 * p.val = r.val; rw [ea, hr]; omega
  | ⟨1, _⟩ => show win3_2.index t 1 * 1 + 1 * 0 = 0; rw [eb]

/-- The bias window's block at every point is the bias row. -/
theorem bias3_apply (c : Dev nD) (t : Fin cfg3.N) (q : Fin 128) :
    (iblk3 V c 3 t : Vec Ideal S1x128 .f32) (ix2 0 q) = (V c main_v66 : S1x128.Idx → EReal) (ix2 0 q) := by
  obtain ⟨-, -, -, -, -, -, ea, eb, -⟩ := index3 t
  unfold iblk3
  rw [View.read_apply]
  show V c main_v66 _ = V c main_v66 _
  congr 1
  funext a
  apply Fin.ext
  match a with
  | ⟨0, _⟩ => show win3_3.index t 0 * 1 + 1 * 0 = 0; rw [ea]
  | ⟨1, _⟩ => show win3_3.index t 1 * 128 + 1 * q.val = q.val; rw [eb]; omega

/-- Entry (p, q) of the block of the previous layer's output at point t is entry (2000 t + p, q) of that array. -/
theorem skip3_apply (c : Dev nD) (t : Fin cfg3.N) (p : Fin 2000) (q : Fin 128) (r : Fin 50000) (hr : r.val = 2000 * t.val + p.val) :
    (iblk3 V c 4 t : Vec Ideal S2000x128 .f32) (ix2 p q) = (V c main_v47 : S50000x128.Idx → EReal) (ix2 r q) := by
  obtain ⟨-, -, -, -, -, -, -, -, ea, eb, -⟩ := index3 t
  unfold iblk3
  rw [View.read_apply]
  show V c main_v47 _ = V c main_v47 _
  congr 1
  funext a
  apply Fin.ext
  match a with
  | ⟨0, _⟩ => show win3_4.index t 0 * 2000 + 1 * p.val = r.val; rw [ea, hr]; omega
  | ⟨1, _⟩ => show win3_4.index t 1 * 128 + 1 * q.val = q.val; rw [eb]; omega

/-- What point t writes back is block t of the layer's combine. -/
theorem flushed3 (c : Dev nD) (t : Fin cfg3.N) :
    (dat3 (F := Ideal) V c).flushed 5 t
      = ((cfg3.win 5).blk t).view.read (Elt Ideal) (Gcn.combineRelu (V c main_v65) (V c main_v52) (V c main_v27) (V c main_v66) (V c main_v47)) := by
  show (cfg3.win 5).cut (grid3.coords t) ((dat3 V c).after 5 t) = _
  rw [after3_5]
  unfold out3_5
  rw [View.canon_unit_zero origin3]
  simp only [View.ld_unit_zero (S := S2000x128) origin3, View.ld_unit_zero (S := S2000x1) origin3, View.ld_unit_zero (S := S1x128) origin3]
  obtain ⟨-, -, -, -, -, -, -, -, -, -, ea, eb⟩ := index3 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored3_apply (iblk3 V c 0 t) (iblk3 V c 2 t) (iblk3 V c 1 t) (iblk3 V c 3 t) (iblk3 V c 4 t) p q).trans ?_
  rw [View.read_apply]
  have hemb : ((cfg3.win 5).blk t).view.emb (ix2 p q) = (ix2 (⟨2000 * t.val + p.val, by omega⟩ : Fin 50000) q : S50000x128.Idx) := by
    funext a
    apply Fin.ext
    match a with
    | ⟨0, _⟩ => show win3_5.index t 0 * 2000 + 1 * p.val = 2000 * t.val + p.val; rw [ea]; omega
    | ⟨1, _⟩ => show win3_5.index t 1 * 128 + 1 * q.val = q.val; rw [eb]; omega
  rw [hemb]
  refine Eq.trans ?_ (combineRelu3_apply _ _ _ _ _ ⟨2000 * t.val + p.val, by omega⟩ q).symm
  rw [agg3_apply V c t p q ⟨2000 * t.val + p.val, by omega⟩ rfl, self3_apply V c t p q ⟨2000 * t.val + p.val, by omega⟩ rfl,
    scale3_apply V c t p ⟨2000 * t.val + p.val, by omega⟩ rfl, bias3_apply V c t q,
    skip3_apply V c t p q ⟨2000 * t.val + p.val, by omega⟩ rfl]

/-- An index of the result array is in point t's block iff each coordinate is in the block's range on its axis. -/
theorem mem_block3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v67).slice (win3_5.rect t)).set ↔ _
  rw [View.set_slice_whole, Rect.mem_set_unit]
  exact Iff.rfl

theorem final3 (c : Dev nD) :
    (dat3 (F := Ideal) V c).arrAt 5 cfg3.N = Gcn.combineRelu (V c main_v65) (V c main_v52) (V c main_v27) (V c main_v66) (V c main_v47) :=
  (dat3 (F := Ideal) V c).arrAt_eq_of_cover 5 (Gcn.combineRelu (V c main_v65) (V c main_v52) (V c main_v27) (V c main_v66) (V c main_v47)) (fun t _ => flushed3 V c t) fun i => by
    have h0 : (i 0).val < 50000 := (i 0).isLt
    have h1 : (i 1).val < 128 := (i 1).isLt
    let t : Fin cfg3.N := ⟨(i 0).val / 2000, by show _ < 25; omega⟩
    obtain ⟨-, -, -, -, -, -, -, -, -, -, ea, eb⟩ := index3 t
    have et : t.val = (i 0).val / 2000 := rfl
    refine ⟨t, flush3_5 t, ?_⟩
    rw [mem_block3]
    intro a
    match a with
    | ⟨0, _⟩ => show win3_5.index t (0 : Fin 2) * 2000 ≤ (i 0).val ∧ (i 0).val < win3_5.index t (0 : Fin 2) * 2000 + 2000; rw [ea, et]; omega
    | ⟨1, _⟩ => show win3_5.index t (1 : Fin 2) * 128 ≤ (i 1).val ∧ (i 1).val < win3_5.index t (1 : Fin 2) * 128 + 128; rw [eb]; omega

end Cert.Gcn.Regions

end
-- ==== Proof.ChainB.lean ====
/-
  The second layer: the same three steps as the first, the combine now through max(·, 0) and with the first
  layer's output added back.
-/
import proofs.«179305_j15616501088588_1_alg».proof.Proof.Gen.KernelIdeal.Frame
import proofs.«179305_j15616501088588_1_alg».proof.Proof.Gen.ReferenceIdeal.Read
import proofs.«179305_j15616501088588_1_alg».proof.Proof.Spec
import proofs.«179305_j15616501088588_1_alg».proof.Proof.Bridge
import proofs.«179305_j15616501088588_1_alg».proof.Proof.ChainA
import proofs.«179305_j15616501088588_1_alg».proof.Proof.Final2
import proofs.«179305_j15616501088588_1_alg».proof.Proof.Final3
import proofs.«179305_j15616501088588_1_alg».proof.Proof.KeepEdges
import proofs.«179305_j15616501088588_1_alg».proof.Proof.KeepLayers
import proofs.«179305_j15616501088588_1_alg».proof.Proof.KeepArgs
import Idealize.ShloMosaic.Lib.StableHlo.Run
import Idealize.ShloMosaic.PureOps.Ideal

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The previous layer's output as dense launch 2 finds it. -/
theorem W8_main_v47 (c : Dev nD) : W8 m ρ c (Proc.devRef .tc main_v47) = (Cert.ReferenceIdeal.Read.val_main_v51 (F := Ideal) (m ((c : Thread nD τ).loc main_arg0)) (m ((c : Thread nD τ).loc main_arg1)) (m ((c : Thread nD τ).loc main_arg2)) (m ((c : Thread nD τ).loc main_arg3))) :=
  (keep_main_v47_8_6 m ρ c).trans (W6_main_v47 m ρ c)
/-- Layer 1's weight matrix divided by its norm, transposed. -/
theorem W8_main_v51 (c : Dev nD) : W8 m ρ c (Proc.devRef .tc main_v51) = (Cert.ReferenceIdeal.Read.val_main_v55 (F := Ideal) (m ((c : Thread nD τ).loc main_arg4))) := by
  after_results_simp
  rw [show W6 m ρ c (Proc.devRef .tc main_arg4) = (m ((c : Thread nD τ).loc main_arg4)) from keep_main_arg4_6_0 m ρ c]
  rfl
/-- Dense launch 2 leaves the reference's matrix product of layer 1. -/
theorem W9_main_v52 (c : Dev nD) : W9 m ρ c (Proc.devRef .tc main_v52) = (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (W9_arr m ρ c 2).trans ((Cert.Gcn.Regions.final2 (V8 m ρ) c).trans ?_)
  show Cert.Gcn.lin (W8 m ρ c (Proc.devRef .tc main_v47)) (W8 m ρ c (Proc.devRef .tc main_v51)) = _
  rw [W8_main_v47 m ρ c, W8_main_v51 m ρ c]
  exact (Cert.Gcn.host_lin _ rfl _ _).symm
theorem W9_main_v1 (c : Dev nD) : W9 m ρ c (Proc.devRef .tc main_v1) = (Cert.ReferenceIdeal.Read.val_main_v1 (F := Ideal) (m ((c : Thread nD τ).loc main_arg1))) :=
  (keep_main_v1_9_4 m ρ c).trans (W4_main_v1 m ρ c)
theorem W9_main_v3 (c : Dev nD) : W9 m ρ c (Proc.devRef .tc main_v3) = (Cert.ReferenceIdeal.Read.val_main_v3 (F := Ideal) (m ((c : Thread nD τ).loc main_arg1))) :=
  (keep_main_v3_9_4 m ρ c).trans (W4_main_v3 m ρ c)
theorem W9_main_v25 (c : Dev nD) : W9 m ρ c (Proc.devRef .tc main_v25) = (Cert.ReferenceIdeal.Read.val_main_v30 (F := Ideal) (m ((c : Thread nD τ).loc main_arg1))) :=
  (keep_main_v25_9_4 m ρ c).trans (W4_main_v25 m ρ c)
theorem W9_main_v27 (c : Dev nD) : W9 m ρ c (Proc.devRef .tc main_v27) = shapeCast S50000x1 (Cert.ReferenceIdeal.Read.val_main_v44 (F := Ideal) (m ((c : Thread nD τ).loc main_arg1))) shapeCasts_S50000_S50000x1 :=
  (keep_main_v27_9_4 m ρ c).trans (W4_main_v27 m ρ c)
/-- The host's gather along the sources, scaling by the per-edge normalisation and scatter-add along the targets
    is the reference's aggregation of layer 1. -/
theorem W10_main_v65 (c : Dev nD) : W10 m ρ c (Proc.devRef .tc main_v65) = (Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  after_results_simp
  rw [W9_main_v52 m ρ c, W9_main_v1 m ρ c, W9_main_v3 m ρ c, W9_main_v25 m ρ c]
  rfl
theorem W10_main_v52 (c : Dev nD) : W10 m ρ c (Proc.devRef .tc main_v52) = (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (keep_main_v52_10_9 m ρ c).trans (W9_main_v52 m ρ c)
theorem W10_main_v27 (c : Dev nD) : W10 m ρ c (Proc.devRef .tc main_v27) = shapeCast S50000x1 (Cert.ReferenceIdeal.Read.val_main_v44 (F := Ideal) (m ((c : Thread nD τ).loc main_arg1))) shapeCasts_S50000_S50000x1 :=
  (keep_main_v27_10_9 m ρ c).trans (W9_main_v27 m ρ c)
/-- The bias of layer 1 as a row. -/
theorem W10_main_v66 (c : Dev nD) : W10 m ρ c (Proc.devRef .tc main_v66) = shapeCast S1x128 (m ((c : Thread nD τ).loc main_arg5)) shapeCasts_S128_S1x128 := by
  after_results_simp
  rw [show W9 m ρ c (Proc.devRef .tc main_arg5) = (m ((c : Thread nD τ).loc main_arg5)) from keep_main_arg5_9_0 m ρ c]
  rfl
theorem W10_main_v47 (c : Dev nD) : W10 m ρ c (Proc.devRef .tc main_v47) = (Cert.ReferenceIdeal.Read.val_main_v51 (F := Ideal) (m ((c : Thread nD τ).loc main_arg0)) (m ((c : Thread nD τ).loc main_arg1)) (m ((c : Thread nD τ).loc main_arg2)) (m ((c : Thread nD τ).loc main_arg3))) :=
  (keep_main_v47_10_8 m ρ c).trans (W8_main_v47 m ρ c)
/-- Combine launch 3 leaves the reference's layer 1: through max(·, 0), plus the previous layer's output. -/
theorem W11_main_v67 (c : Dev nD) : W11 m ρ c (Proc.devRef .tc main_v67) = (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W11_arr m ρ c 5).trans ((Cert.Gcn.Regions.final3 (V10 m ρ) c).trans ?_)
  show Cert.Gcn.combineRelu (W10 m ρ c (Proc.devRef .tc main_v65)) (W10 m ρ c (Proc.devRef .tc main_v52)) (W10 m ρ c (Proc.devRef .tc main_v27)) (W10 m ρ c (Proc.devRef .tc main_v66)) (W10 m ρ c (Proc.devRef .tc main_v47)) = _
  rw [W10_main_v65 m ρ c, W10_main_v52 m ρ c, W10_main_v27 m ρ c, W10_main_v66 m ρ c, W10_main_v47 m ρ c]
  simp only [Cert.ReferenceIdeal.Read.val_main_v101, Cert.ReferenceIdeal.Read.val_main_v100, Cert.ReferenceIdeal.Read.val_main_v99, Cert.ReferenceIdeal.Read.val_main_v96, Cert.ReferenceIdeal.Read.val_main_v95, Cert.ReferenceIdeal.Read.val_main_v94, Cert.ReferenceIdeal.Read.val_main_v93, Cert.ReferenceIdeal.Read.val_main_v98, Cert.ReferenceIdeal.Read.val_main_v97, Cert.ReferenceIdeal.Read.val_main_call2_v0, Cert.ReferenceIdeal.Read.val_main_call2_cst]
  exact Cert.Gcn.host_combineRelu _ _ _ _ _ _ _ _ _ _ _ _

end Cert.Gcn.Chain

end
-- ==== Proof.Final4.lean ====
/-
  Region 4: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibDotCols
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin4 : (![0, 0] : Fin 2 → Nat) = fun _ => 0 := funext fun a => by fin_cases a <;> rfl

/-- What the body stores at (p, q): row p of its block of features times column q of the weights. -/
theorem stored4_apply (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) := by
  unfold k4_pay1
  refine (Cert.Lib.DotCols.matmul_cols_apply dot_S2000x128_S128x128_S2000x128_1_0_0_1_n_n rfl none _ _ p q).trans ?_
  refine Finset.sum_congr rfl fun k _ => ?_
  rw [shapeCast_self, shapeCast_self]
  rfl

/-- The block index maps over the grid: point t takes rows 2000 t … 2000 t + 1999 of the features and of the result, and
    the whole weight matrix. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of the feature block at point t is entry (2000 t + p, k) of the feature array. -/
theorem feat4_apply (c : Dev nD) (t : Fin cfg4.N) (p : Fin 2000) (q : Fin 128) (r : Fin 50000) (hr : r.val = 2000 * t.val + p.val) :
    (iblk4 V c 0 t : Vec Ideal S2000x128 .f32) (ix2 p q) = (V c main_v67 : S50000x128.Idx → EReal) (ix2 r q) := by
  obtain ⟨ea, eb, -⟩ := index4 t
  unfold iblk4
  rw [View.read_apply]
  show V c main_v67 _ = V c main_v67 _
  congr 1
  funext a
  apply Fin.ext
  match a with
  | ⟨0, _⟩ => show win4_0.index t 0 * 2000 + 1 * p.val = r.val; rw [ea, hr]; omega
  | ⟨1, _⟩ => show win4_0.index t 1 * 128 + 1 * q.val = q.val; rw [eb]; omega

/-- The weight window's block at every point is the weight matrix. -/
theorem weight4_apply (c : Dev nD) (t : Fin cfg4.N) (k : Fin 128) (q : Fin 128) :
    (iblk4 V c 1 t : Vec Ideal S128x128 .f32) (ix2 k q) = (V c main_v71 : S128x128.Idx → EReal) (ix2 k q) := by
  obtain ⟨-, -, ea, eb, -⟩ := index4 t
  unfold iblk4
  rw [View.read_apply]
  show V c main_v71 _ = V c main_v71 _
  congr 1
  funext a
  apply Fin.ext
  match a with
  | ⟨0, _⟩ => show win4_1.index t 0 * 128 + 1 * k.val = k.val; rw [ea]; omega
  | ⟨1, _⟩ => show win4_1.index t 1 * 128 + 1 * q.val = q.val; rw [eb]; omega

/-- What point t writes back is block t of the product. -/
theorem flushed4 (c : Dev nD) (t : Fin cfg4.N) :
    (dat4 (F := Ideal) V c).flushed 2 t
      = ((cfg4.win 2).blk t).view.read (Elt Ideal) (Gcn.lin (V c main_v67) (V c main_v71)) := by
  show (cfg4.win 2).cut (grid4.coords t) ((dat4 V c).after 2 t) = _
  rw [after4_2]
  unfold out4_2
  rw [View.canon_unit_zero origin4]
  simp only [View.ld_unit_zero (S := S2000x128) origin4, View.ld_unit_zero (S := S128x128) origin4]
  obtain ⟨-, -, -, -, ea, eb⟩ := index4 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored4_apply (iblk4 V c 0 t) (iblk4 V c 1 t) p q).trans ?_
  rw [View.read_apply]
  have hemb : ((cfg4.win 2).blk t).view.emb (ix2 p q) = (ix2 (⟨2000 * t.val + p.val, by omega⟩ : Fin 50000) q : S50000x128.Idx) := by
    funext a
    apply Fin.ext
    match a with
    | ⟨0, _⟩ => show win4_2.index t 0 * 2000 + 1 * p.val = 2000 * t.val + p.val; rw [ea]; omega
    | ⟨1, _⟩ => show win4_2.index t 1 * 128 + 1 * q.val = q.val; rw [eb]; omega
  rw [hemb]
  show _ = Gcn.linAt (V c main_v67) (V c main_v71) ⟨2000 * t.val + p.val, _⟩ q
  unfold Gcn.linAt
  refine Finset.sum_congr rfl fun k _ => ?_
  rw [feat4_apply V c t p k ⟨2000 * t.val + p.val, by omega⟩ rfl, weight4_apply V c t k q]

/-- An index of the result array is in point t's block iff each coordinate is in the block's range on its axis. -/
theorem mem_block4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v72).slice (win4_2.rect t)).set ↔ _
  rw [View.set_slice_whole, Rect.mem_set_unit]
  exact Iff.rfl

theorem final4 (c : Dev nD) :
    (dat4 (F := Ideal) V c).arrAt 2 cfg4.N = Gcn.lin (V c main_v67) (V c main_v71) :=
  (dat4 (F := Ideal) V c).arrAt_eq_of_cover 2 (Gcn.lin (V c main_v67) (V c main_v71)) (fun t _ => flushed4 V c t) fun i => by
    have h0 : (i 0).val < 50000 := (i 0).isLt
    have h1 : (i 1).val < 128 := (i 1).isLt
    let t : Fin cfg4.N := ⟨(i 0).val / 2000, by show _ < 25; omega⟩
    obtain ⟨-, -, -, -, ea, eb⟩ := index4 t
    have et : t.val = (i 0).val / 2000 := rfl
    refine ⟨t, flush4_2 t, ?_⟩
    rw [mem_block4]
    intro a
    match a with
    | ⟨0, _⟩ => show win4_2.index t (0 : Fin 2) * 2000 ≤ (i 0).val ∧ (i 0).val < win4_2.index t (0 : Fin 2) * 2000 + 2000; rw [ea, et]; omega
    | ⟨1, _⟩ => show win4_2.index t (1 : Fin 2) * 128 ≤ (i 1).val ∧ (i 1).val < win4_2.index t (1 : Fin 2) * 128 + 128; rw [eb]; omega

end Cert.Gcn.Regions

end
-- ==== Proof.Final5.lean ====
/-
  Region 5: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibColumns
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin5 : (![0, 0] : Fin 2 → Nat) = fun _ => 0 := funext fun a => by fin_cases a <;> rfl

/-- A later layer's combine at row r and column q, written out. -/
theorem combineRelu5_apply (agg h : FVec Ideal SNxD .f32) (s : FVec Ideal SNx1 .f32) (b : FVec Ideal S1xD .f32) (skip : FVec Ideal SNxD .f32)
    (r : Fin 50000) (q : Fin 128) :
    Gcn.combineRelu agg h s b skip (ix2 r q)
      = max (agg (ix2 r q) + s (ix2 r 0) * h (ix2 r q) + b (ix2 0 q)) 0 + skip (ix2 r q) := rfl

/-- What the body stores at (p, q): the aggregated message plus the node's scaled own features plus the bias, cut below
    at zero, plus the previous layer's entry. -/
theorem stored5_apply (x0 : Vec Ideal S2000x128 .f32) (x2 : Vec Ideal S2000x1 .f32) (x1 : Vec Ideal S2000x128 .f32)
    (x3 : Vec Ideal S1x128 .f32) (x4 : Vec Ideal S2000x128 .f32) (p : Fin 2000) (q : Fin 128) :
    k5_pay1 (F := Ideal) x0 x2 x1 x3 x4 (ix2 p q)
      = max (x0 (ix2 p q) + x2 (ix2 p 0) * x1 (ix2 p q) + x3 (ix2 0 q)) 0 + x4 (ix2 p q) := by
  unfold k5_pay1
  show max (shapeCast S2000x128 x0 _ (ix2 p q)
        + broadcastTo S2000x128 (shapeCast S2000x1 x2 _) _ (ix2 p q) * shapeCast S2000x128 x1 _ (ix2 p q)
        + broadcastTo S2000x128 (shapeCast S1x128 x3 _) _ (ix2 p q)) (Ideal.ofBits .f32 0x00000000#32)
      + shapeCast S2000x128 x4 _ (ix2 p q) = _
  rw [broadcastTo_a1_ab_apply, broadcastTo_1b_ab_apply, Ideal.ofBits_zero_f32]
  simp only [shapeCast_self]

/-- The block index maps over the grid: point t takes rows 2000 t … 2000 t + 1999 of the four node arrays and of the
    result, and the whole bias row. -/
theorem index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- Entry (p, q) of the block of aggregated messages at point t is entry (2000 t + p, q) of their array. -/
theorem agg5_apply (c : Dev nD) (t : Fin cfg5.N) (p : Fin 2000) (q : Fin 128) (r : Fin 50000) (hr : r.val = 2000 * t.val + p.val) :
    (iblk5 V c 0 t : Vec Ideal S2000x128 .f32) (ix2 p q) = (V c main_v85 : S50000x128.Idx → EReal) (ix2 r q) := by
  obtain ⟨ea, eb, -⟩ := index5 t
  unfold iblk5
  rw [View.read_apply]
  show V c main_v85 _ = V c main_v85 _
  congr 1
  funext a
  apply Fin.ext
  match a with
  | ⟨0, _⟩ => show win5_0.index t 0 * 2000 + 1 * p.val = r.val; rw [ea, hr]; omega
  | ⟨1, _⟩ => show win5_0.index t 1 * 128 + 1 * q.val = q.val; rw [eb]; omega

/-- Entry (p, q) of the block of projected features at point t is entry (2000 t + p, q) of their array. -/
theorem self5_apply (c : Dev nD) (t : Fin cfg5.N) (p : Fin 2000) (q : Fin 128) (r : Fin 50000) (hr : r.val = 2000 * t.val + p.val) :
    (iblk5 V c 1 t : Vec Ideal S2000x128 .f32) (ix2 p q) = (V c main_v72 : S50000x128.Idx → EReal) (ix2 r q) := by
  obtain ⟨-, -, ea, eb, -⟩ := index5 t
  unfold iblk5
  rw [View.read_apply]
  show V c main_v72 _ = V c main_v72 _
  congr 1
  funext a
  apply Fin.ext
  match a with
  | ⟨0, _⟩ => show win5_1.index t 0 * 2000 + 1 * p.val = r.val; rw [ea, hr]; omega
  | ⟨1, _⟩ => show win5_1.index t 1 * 128 + 1 * q.val = q.val; rw [eb]; omega

/-- Entry p of the block of node factors at point t is entry 2000 t + p of their column. -/
theorem scale5_apply (c : Dev nD) (t : Fin cfg5.N) (p : Fin 2000) (r : Fin 50000) (hr : r.val = 2000 * t.val + p.val) :
    (iblk5 V c 2 t : Vec Ideal S2000x1 .f32) (ix2 p 0) = (V c main_v27 : S50000x1.Idx → EReal) (ix2 r 0) := by
  obtain ⟨-, -, -, -, ea, eb, -⟩ := index5 t
  unfold iblk5
  rw [View.read_apply]
  show V c main_v27 _ = V c main_v27 _
  congr 1
  funext a
  apply Fin.ext
  match a with
  | ⟨0, _⟩ => show win5_2.index t 0 * 2000 + 1 * p.val = r.val; rw [ea, hr]; omega
  | ⟨1, _⟩ => show win5_2.index t 1 * 1 + 1 * 0 = 0; rw [eb]

/-- The bias window's block at every point is the bias row. -/
theorem bias5_apply (c : Dev nD) (t : Fin cfg5.N) (q : Fin 128) :
    (iblk5 V c 3 t : Vec Ideal S1x128 .f32) (ix2 0 q) = (V c main_v86 : S1x128.Idx → EReal) (ix2 0 q) := by
  obtain ⟨-, -, -, -, -, -, ea, eb, -⟩ := index5 t
  unfold iblk5
  rw [View.read_apply]
  show V c main_v86 _ = V c main_v86 _
  congr 1
  funext a
  apply Fin.ext
  match a with
  | ⟨0, _⟩ => show win5_3.index t 0 * 1 + 1 * 0 = 0; rw [ea]
  | ⟨1, _⟩ => show win5_3.index t 1 * 128 + 1 * q.val = q.val; rw [eb]; omega

/-- Entry (p, q) of the block of the previous layer's output at point t is entry (2000 t + p, q) of that array. -/
theorem skip5_apply (c : Dev nD) (t : Fin cfg5.N) (p : Fin 2000) (q : Fin 128) (r : Fin 50000) (hr : r.val = 2000 * t.val + p.val) :
    (iblk5 V c 4 t : Vec Ideal S2000x128 .f32) (ix2 p q) = (V c main_v67 : S50000x128.Idx → EReal) (ix2 r q) := by
  obtain ⟨-, -, -, -, -, -, -, -, ea, eb, -⟩ := index5 t
  unfold iblk5
  rw [View.read_apply]
  show V c main_v67 _ = V c main_v67 _
  congr 1
  funext a
  apply Fin.ext
  match a with
  | ⟨0, _⟩ => show win5_4.index t 0 * 2000 + 1 * p.val = r.val; rw [ea, hr]; omega
  | ⟨1, _⟩ => show win5_4.index t 1 * 128 + 1 * q.val = q.val; rw [eb]; omega

/-- What point t writes back is block t of the layer's combine. -/
theorem flushed5 (c : Dev nD) (t : Fin cfg5.N) :
    (dat5 (F := Ideal) V c).flushed 5 t
      = ((cfg5.win 5).blk t).view.read (Elt Ideal) (Gcn.combineRelu (V c main_v85) (V c main_v72) (V c main_v27) (V c main_v86) (V c main_v67)) := by
  show (cfg5.win 5).cut (grid5.coords t) ((dat5 V c).after 5 t) = _
  rw [after5_5]
  unfold out5_5
  rw [View.canon_unit_zero origin5]
  simp only [View.ld_unit_zero (S := S2000x128) origin5, View.ld_unit_zero (S := S2000x1) origin5, View.ld_unit_zero (S := S1x128) origin5]
  obtain ⟨-, -, -, -, -, -, -, -, -, -, ea, eb⟩ := index5 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored5_apply (iblk5 V c 0 t) (iblk5 V c 2 t) (iblk5 V c 1 t) (iblk5 V c 3 t) (iblk5 V c 4 t) p q).trans ?_
  rw [View.read_apply]
  have hemb : ((cfg5.win 5).blk t).view.emb (ix2 p q) = (ix2 (⟨2000 * t.val + p.val, by omega⟩ : Fin 50000) q : S50000x128.Idx) := by
    funext a
    apply Fin.ext
    match a with
    | ⟨0, _⟩ => show win5_5.index t 0 * 2000 + 1 * p.val = 2000 * t.val + p.val; rw [ea]; omega
    | ⟨1, _⟩ => show win5_5.index t 1 * 128 + 1 * q.val = q.val; rw [eb]; omega
  rw [hemb]
  refine Eq.trans ?_ (combineRelu5_apply _ _ _ _ _ ⟨2000 * t.val + p.val, by omega⟩ q).symm
  rw [agg5_apply V c t p q ⟨2000 * t.val + p.val, by omega⟩ rfl, self5_apply V c t p q ⟨2000 * t.val + p.val, by omega⟩ rfl,
    scale5_apply V c t p ⟨2000 * t.val + p.val, by omega⟩ rfl, bias5_apply V c t q,
    skip5_apply V c t p q ⟨2000 * t.val + p.val, by omega⟩ rfl]

/-- An index of the result array is in point t's block iff each coordinate is in the block's range on its axis. -/
theorem mem_block5 (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v87).slice (win5_5.rect t)).set ↔ _
  rw [View.set_slice_whole, Rect.mem_set_unit]
  exact Iff.rfl

theorem final5 (c : Dev nD) :
    (dat5 (F := Ideal) V c).arrAt 5 cfg5.N = Gcn.combineRelu (V c main_v85) (V c main_v72) (V c main_v27) (V c main_v86) (V c main_v67) :=
  (dat5 (F := Ideal) V c).arrAt_eq_of_cover 5 (Gcn.combineRelu (V c main_v85) (V c main_v72) (V c main_v27) (V c main_v86) (V c main_v67)) (fun t _ => flushed5 V c t) fun i => by
    have h0 : (i 0).val < 50000 := (i 0).isLt
    have h1 : (i 1).val < 128 := (i 1).isLt
    let t : Fin cfg5.N := ⟨(i 0).val / 2000, by show _ < 25; omega⟩
    obtain ⟨-, -, -, -, -, -, -, -, -, -, ea, eb⟩ := index5 t
    have et : t.val = (i 0).val / 2000 := rfl
    refine ⟨t, flush5_5 t, ?_⟩
    rw [mem_block5]
    intro a
    match a with
    | ⟨0, _⟩ => show win5_5.index t (0 : Fin 2) * 2000 ≤ (i 0).val ∧ (i 0).val < win5_5.index t (0 : Fin 2) * 2000 + 2000; rw [ea, et]; omega
    | ⟨1, _⟩ => show win5_5.index t (1 : Fin 2) * 128 ≤ (i 1).val ∧ (i 1).val < win5_5.index t (1 : Fin 2) * 128 + 128; rw [eb]; omega

end Cert.Gcn.Regions

end
-- ==== Proof.ChainC.lean ====
/-
  The third layer.
-/
import proofs.«179305_j15616501088588_1_alg».proof.Proof.Gen.KernelIdeal.Frame
import proofs.«179305_j15616501088588_1_alg».proof.Proof.Gen.ReferenceIdeal.Read
import proofs.«179305_j15616501088588_1_alg».proof.Proof.Spec
import proofs.«179305_j15616501088588_1_alg».proof.Proof.Bridge
import proofs.«179305_j15616501088588_1_alg».proof.Proof.ChainB
import proofs.«179305_j15616501088588_1_alg».proof.Proof.Final4
import proofs.«179305_j15616501088588_1_alg».proof.Proof.Final5
import proofs.«179305_j15616501088588_1_alg».proof.Proof.KeepEdges
import proofs.«179305_j15616501088588_1_alg».proof.Proof.KeepLayers
import proofs.«179305_j15616501088588_1_alg».proof.Proof.KeepArgs
import Idealize.ShloMosaic.Lib.StableHlo.Run
import Idealize.ShloMosaic.PureOps.Ideal

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The previous layer's output as dense launch 4 finds it. -/
theorem W13_main_v67 (c : Dev nD) : W13 m ρ c (Proc.devRef .tc main_v67) = (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (keep_main_v67_13_11 m ρ c).trans (W11_main_v67 m ρ c)
/-- Layer 2's weight matrix divided by its norm, transposed. -/
theorem W13_main_v71 (c : Dev nD) : W13 m ρ c (Proc.devRef .tc main_v71) = (Cert.ReferenceIdeal.Read.val_main_v105 (F := Ideal) (m ((c : Thread nD τ).loc main_arg6))) := by
  after_results_simp
  rw [show W11 m ρ c (Proc.devRef .tc main_arg6) = (m ((c : Thread nD τ).loc main_arg6)) from keep_main_arg6_11_0 m ρ c]
  rfl
/-- Dense launch 4 leaves the reference's matrix product of layer 2. -/
theorem W14_main_v72 (c : Dev nD) : W14 m ρ c (Proc.devRef .tc main_v72) = (Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W14_arr m ρ c 2).trans ((Cert.Gcn.Regions.final4 (V13 m ρ) c).trans ?_)
  show Cert.Gcn.lin (W13 m ρ c (Proc.devRef .tc main_v67)) (W13 m ρ c (Proc.devRef .tc main_v71)) = _
  rw [W13_main_v67 m ρ c, W13_main_v71 m ρ c]
  exact (Cert.Gcn.host_lin _ rfl _ _).symm
theorem W14_main_v1 (c : Dev nD) : W14 m ρ c (Proc.devRef .tc main_v1) = (Cert.ReferenceIdeal.Read.val_main_v1 (F := Ideal) (m ((c : Thread nD τ).loc main_arg1))) :=
  (keep_main_v1_14_9 m ρ c).trans (W9_main_v1 m ρ c)
theorem W14_main_v3 (c : Dev nD) : W14 m ρ c (Proc.devRef .tc main_v3) = (Cert.ReferenceIdeal.Read.val_main_v3 (F := Ideal) (m ((c : Thread nD τ).loc main_arg1))) :=
  (keep_main_v3_14_9 m ρ c).trans (W9_main_v3 m ρ c)
theorem W14_main_v25 (c : Dev nD) : W14 m ρ c (Proc.devRef .tc main_v25) = (Cert.ReferenceIdeal.Read.val_main_v30 (F := Ideal) (m ((c : Thread nD τ).loc main_arg1))) :=
  (keep_main_v25_14_9 m ρ c).trans (W9_main_v25 m ρ c)
theorem W14_main_v27 (c : Dev nD) : W14 m ρ c (Proc.devRef .tc main_v27) = shapeCast S50000x1 (Cert.ReferenceIdeal.Read.val_main_v44 (F := Ideal) (m ((c : Thread nD τ).loc main_arg1))) shapeCasts_S50000_S50000x1 :=
  (keep_main_v27_14_9 m ρ c).trans (W9_main_v27 m ρ c)
/-- The host's gather along the sources, scaling by the per-edge normalisation and scatter-add along the targets
    is the reference's aggregation of layer 2. -/
theorem W15_main_v85 (c : Dev nD) : W15 m ρ c (Proc.devRef .tc main_v85) = (Cert.ReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  after_results_simp
  rw [W14_main_v72 m ρ c, W14_main_v1 m ρ c, W14_main_v3 m ρ c, W14_main_v25 m ρ c]
  rfl
theorem W15_main_v72 (c : Dev nD) : W15 m ρ c (Proc.devRef .tc main_v72) = (Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (keep_main_v72_15_14 m ρ c).trans (W14_main_v72 m ρ c)
theorem W15_main_v27 (c : Dev nD) : W15 m ρ c (Proc.devRef .tc main_v27) = shapeCast S50000x1 (Cert.ReferenceIdeal.Read.val_main_v44 (F := Ideal) (m ((c : Thread nD τ).loc main_arg1))) shapeCasts_S50000_S50000x1 :=
  (keep_main_v27_15_14 m ρ c).trans (W14_main_v27 m ρ c)
/-- The bias of layer 2 as a row. -/
theorem W15_main_v86 (c : Dev nD) : W15 m ρ c (Proc.devRef .tc main_v86) = shapeCast S1x128 (m ((c : Thread nD τ).loc main_arg7)) shapeCasts_S128_S1x128 := by
  after_results_simp
  rw [show W14 m ρ c (Proc.devRef .tc main_arg7) = (m ((c : Thread nD τ).loc main_arg7)) from keep_main_arg7_14_0 m ρ c]
  rfl
theorem W15_main_v67 (c : Dev nD) : W15 m ρ c (Proc.devRef .tc main_v67) = (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (keep_main_v67_15_13 m ρ c).trans (W13_main_v67 m ρ c)
/-- Combine launch 5 leaves the reference's layer 2: through max(·, 0), plus the previous layer's output. -/
theorem W16_main_v87 (c : Dev nD) : W16 m ρ c (Proc.devRef .tc main_v87) = (Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W16_arr m ρ c 5).trans ((Cert.Gcn.Regions.final5 (V15 m ρ) c).trans ?_)
  show Cert.Gcn.combineRelu (W15 m ρ c (Proc.devRef .tc main_v85)) (W15 m ρ c (Proc.devRef .tc main_v72)) (W15 m ρ c (Proc.devRef .tc main_v27)) (W15 m ρ c (Proc.devRef .tc main_v86)) (W15 m ρ c (Proc.devRef .tc main_v67)) = _
  rw [W15_main_v85 m ρ c, W15_main_v72 m ρ c, W15_main_v27 m ρ c, W15_main_v86 m ρ c, W15_main_v67 m ρ c]
  simp only [Cert.ReferenceIdeal.Read.val_main_v151, Cert.ReferenceIdeal.Read.val_main_v150, Cert.ReferenceIdeal.Read.val_main_v149, Cert.ReferenceIdeal.Read.val_main_v146, Cert.ReferenceIdeal.Read.val_main_v145, Cert.ReferenceIdeal.Read.val_main_v144, Cert.ReferenceIdeal.Read.val_main_v143, Cert.ReferenceIdeal.Read.val_main_v148, Cert.ReferenceIdeal.Read.val_main_v147, Cert.ReferenceIdeal.Read.val_main_call4_v0, Cert.ReferenceIdeal.Read.val_main_call4_cst]
  exact Cert.Gcn.host_combineRelu _ _ _ _ _ _ _ _ _ _ _ _

end Cert.Gcn.Chain

end
-- ==== Proof.Final6.lean ====
/-
  Region 6: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibDotCols
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin6 : (![0, 0] : Fin 2 → Nat) = fun _ => 0 := funext fun a => by fin_cases a <;> rfl

/-- What the body stores at (p, q): row p of its block of features times column q of the weights. -/
theorem stored6_apply (x0 : Vec Ideal S2000x128 .f32) (x1 : Vec Ideal S128x128 .f32) (p : Fin 2000) (q : Fin 128) :
    k6_pay1 (F := Ideal) x0 x1 (ix2 p q) = ∑ k : Fin 128, x0 (ix2 p k) * x1 (ix2 k q) := by
  unfold k6_pay1
  refine (Cert.Lib.DotCols.matmul_cols_apply dot_S2000x128_S128x128_S2000x128_1_0_0_1_n_n rfl none _ _ p q).trans ?_
  refine Finset.sum_congr rfl fun k _ => ?_
  rw [shapeCast_self, shapeCast_self]
  rfl

/-- The block index maps over the grid: point t takes rows 2000 t … 2000 t + 1999 of the features and of the result, and
    the whole weight matrix. -/
theorem index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry (p, k) of the feature block at point t is entry (2000 t + p, k) of the feature array. -/
theorem feat6_apply (c : Dev nD) (t : Fin cfg6.N) (p : Fin 2000) (q : Fin 128) (r : Fin 50000) (hr : r.val = 2000 * t.val + p.val) :
    (iblk6 V c 0 t : Vec Ideal S2000x128 .f32) (ix2 p q) = (V c main_v87 : S50000x128.Idx → EReal) (ix2 r q) := by
  obtain ⟨ea, eb, -⟩ := index6 t
  unfold iblk6
  rw [View.read_apply]
  show V c main_v87 _ = V c main_v87 _
  congr 1
  funext a
  apply Fin.ext
  match a with
  | ⟨0, _⟩ => show win6_0.index t 0 * 2000 + 1 * p.val = r.val; rw [ea, hr]; omega
  | ⟨1, _⟩ => show win6_0.index t 1 * 128 + 1 * q.val = q.val; rw [eb]; omega

/-- The weight window's block at every point is the weight matrix. -/
theorem weight6_apply (c : Dev nD) (t : Fin cfg6.N) (k : Fin 128) (q : Fin 128) :
    (iblk6 V c 1 t : Vec Ideal S128x128 .f32) (ix2 k q) = (V c main_v91 : S128x128.Idx → EReal) (ix2 k q) := by
  obtain ⟨-, -, ea, eb, -⟩ := index6 t
  unfold iblk6
  rw [View.read_apply]
  show V c main_v91 _ = V c main_v91 _
  congr 1
  funext a
  apply Fin.ext
  match a with
  | ⟨0, _⟩ => show win6_1.index t 0 * 128 + 1 * k.val = k.val; rw [ea]; omega
  | ⟨1, _⟩ => show win6_1.index t 1 * 128 + 1 * q.val = q.val; rw [eb]; omega

/-- What point t writes back is block t of the product. -/
theorem flushed6 (c : Dev nD) (t : Fin cfg6.N) :
    (dat6 (F := Ideal) V c).flushed 2 t
      = ((cfg6.win 2).blk t).view.read (Elt Ideal) (Gcn.lin (V c main_v87) (V c main_v91)) := by
  show (cfg6.win 2).cut (grid6.coords t) ((dat6 V c).after 2 t) = _
  rw [after6_2]
  unfold out6_2
  rw [View.canon_unit_zero origin6]
  simp only [View.ld_unit_zero (S := S2000x128) origin6, View.ld_unit_zero (S := S128x128) origin6]
  obtain ⟨-, -, -, -, ea, eb⟩ := index6 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored6_apply (iblk6 V c 0 t) (iblk6 V c 1 t) p q).trans ?_
  rw [View.read_apply]
  have hemb : ((cfg6.win 2).blk t).view.emb (ix2 p q) = (ix2 (⟨2000 * t.val + p.val, by omega⟩ : Fin 50000) q : S50000x128.Idx) := by
    funext a
    apply Fin.ext
    match a with
    | ⟨0, _⟩ => show win6_2.index t 0 * 2000 + 1 * p.val = 2000 * t.val + p.val; rw [ea]; omega
    | ⟨1, _⟩ => show win6_2.index t 1 * 128 + 1 * q.val = q.val; rw [eb]; omega
  rw [hemb]
  show _ = Gcn.linAt (V c main_v87) (V c main_v91) ⟨2000 * t.val + p.val, _⟩ q
  unfold Gcn.linAt
  refine Finset.sum_congr rfl fun k _ => ?_
  rw [feat6_apply V c t p k ⟨2000 * t.val + p.val, by omega⟩ rfl, weight6_apply V c t k q]

/-- An index of the result array is in point t's block iff each coordinate is in the block's range on its axis. -/
theorem mem_block6 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v92).slice (win6_2.rect t)).set ↔ _
  rw [View.set_slice_whole, Rect.mem_set_unit]
  exact Iff.rfl

theorem final6 (c : Dev nD) :
    (dat6 (F := Ideal) V c).arrAt 2 cfg6.N = Gcn.lin (V c main_v87) (V c main_v91) :=
  (dat6 (F := Ideal) V c).arrAt_eq_of_cover 2 (Gcn.lin (V c main_v87) (V c main_v91)) (fun t _ => flushed6 V c t) fun i => by
    have h0 : (i 0).val < 50000 := (i 0).isLt
    have h1 : (i 1).val < 128 := (i 1).isLt
    let t : Fin cfg6.N := ⟨(i 0).val / 2000, by show _ < 25; omega⟩
    obtain ⟨-, -, -, -, ea, eb⟩ := index6 t
    have et : t.val = (i 0).val / 2000 := rfl
    refine ⟨t, flush6_2 t, ?_⟩
    rw [mem_block6]
    intro a
    match a with
    | ⟨0, _⟩ => show win6_2.index t (0 : Fin 2) * 2000 ≤ (i 0).val ∧ (i 0).val < win6_2.index t (0 : Fin 2) * 2000 + 2000; rw [ea, et]; omega
    | ⟨1, _⟩ => show win6_2.index t (1 : Fin 2) * 128 ≤ (i 1).val ∧ (i 1).val < win6_2.index t (1 : Fin 2) * 128 + 128; rw [eb]; omega

end Cert.Gcn.Regions

end
-- ==== Proof.Final7.lean ====
/-
  Region 7: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibColumns
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin7 : (![0, 0] : Fin 2 → Nat) = fun _ => 0 := funext fun a => by fin_cases a <;> rfl

/-- A later layer's combine at row r and column q, written out. -/
theorem combineRelu7_apply (agg h : FVec Ideal SNxD .f32) (s : FVec Ideal SNx1 .f32) (b : FVec Ideal S1xD .f32) (skip : FVec Ideal SNxD .f32)
    (r : Fin 50000) (q : Fin 128) :
    Gcn.combineRelu agg h s b skip (ix2 r q)
      = max (agg (ix2 r q) + s (ix2 r 0) * h (ix2 r q) + b (ix2 0 q)) 0 + skip (ix2 r q) := rfl

/-- What the body stores at (p, q): the aggregated message plus the node's scaled own features plus the bias, cut below
    at zero, plus the previous layer's entry. -/
theorem stored7_apply (x0 : Vec Ideal S2000x128 .f32) (x2 : Vec Ideal S2000x1 .f32) (x1 : Vec Ideal S2000x128 .f32)
    (x3 : Vec Ideal S1x128 .f32) (x4 : Vec Ideal S2000x128 .f32) (p : Fin 2000) (q : Fin 128) :
    k7_pay1 (F := Ideal) x0 x2 x1 x3 x4 (ix2 p q)
      = max (x0 (ix2 p q) + x2 (ix2 p 0) * x1 (ix2 p q) + x3 (ix2 0 q)) 0 + x4 (ix2 p q) := by
  unfold k7_pay1
  show max (shapeCast S2000x128 x0 _ (ix2 p q)
        + broadcastTo S2000x128 (shapeCast S2000x1 x2 _) _ (ix2 p q) * shapeCast S2000x128 x1 _ (ix2 p q)
        + broadcastTo S2000x128 (shapeCast S1x128 x3 _) _ (ix2 p q)) (Ideal.ofBits .f32 0x00000000#32)
      + shapeCast S2000x128 x4 _ (ix2 p q) = _
  rw [broadcastTo_a1_ab_apply, broadcastTo_1b_ab_apply, Ideal.ofBits_zero_f32]
  simp only [shapeCast_self]

/-- The block index maps over the grid: point t takes rows 2000 t … 2000 t + 1999 of the four node arrays and of the
    result, and the whole bias row. -/
theorem index7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-- Entry (p, q) of the block of aggregated messages at point t is entry (2000 t + p, q) of their array. -/
theorem agg7_apply (c : Dev nD) (t : Fin cfg7.N) (p : Fin 2000) (q : Fin 128) (r : Fin 50000) (hr : r.val = 2000 * t.val + p.val) :
    (iblk7 V c 0 t : Vec Ideal S2000x128 .f32) (ix2 p q) = (V c main_v105 : S50000x128.Idx → EReal) (ix2 r q) := by
  obtain ⟨ea, eb, -⟩ := index7 t
  unfold iblk7
  rw [View.read_apply]
  show V c main_v105 _ = V c main_v105 _
  congr 1
  funext a
  apply Fin.ext
  match a with
  | ⟨0, _⟩ => show win7_0.index t 0 * 2000 + 1 * p.val = r.val; rw [ea, hr]; omega
  | ⟨1, _⟩ => show win7_0.index t 1 * 128 + 1 * q.val = q.val; rw [eb]; omega

/-- Entry (p, q) of the block of projected features at point t is entry (2000 t + p, q) of their array. -/
theorem self7_apply (c : Dev nD) (t : Fin cfg7.N) (p : Fin 2000) (q : Fin 128) (r : Fin 50000) (hr : r.val = 2000 * t.val + p.val) :
    (iblk7 V c 1 t : Vec Ideal S2000x128 .f32) (ix2 p q) = (V c main_v92 : S50000x128.Idx → EReal) (ix2 r q) := by
  obtain ⟨-, -, ea, eb, -⟩ := index7 t
  unfold iblk7
  rw [View.read_apply]
  show V c main_v92 _ = V c main_v92 _
  congr 1
  funext a
  apply Fin.ext
  match a with
  | ⟨0, _⟩ => show win7_1.index t 0 * 2000 + 1 * p.val = r.val; rw [ea, hr]; omega
  | ⟨1, _⟩ => show win7_1.index t 1 * 128 + 1 * q.val = q.val; rw [eb]; omega

/-- Entry p of the block of node factors at point t is entry 2000 t + p of their column. -/
theorem scale7_apply (c : Dev nD) (t : Fin cfg7.N) (p : Fin 2000) (r : Fin 50000) (hr : r.val = 2000 * t.val + p.val) :
    (iblk7 V c 2 t : Vec Ideal S2000x1 .f32) (ix2 p 0) = (V c main_v27 : S50000x1.Idx → EReal) (ix2 r 0) := by
  obtain ⟨-, -, -, -, ea, eb, -⟩ := index7 t
  unfold iblk7
  rw [View.read_apply]
  show V c main_v27 _ = V c main_v27 _
  congr 1
  funext a
  apply Fin.ext
  match a with
  | ⟨0, _⟩ => show win7_2.index t 0 * 2000 + 1 * p.val = r.val; rw [ea, hr]; omega
  | ⟨1, _⟩ => show win7_2.index t 1 * 1 + 1 * 0 = 0; rw [eb]

/-- The bias window's block at every point is the bias row. -/
theorem bias7_apply (c : Dev nD) (t : Fin cfg7.N) (q : Fin 128) :
    (iblk7 V c 3 t : Vec Ideal S1x128 .f32) (ix2 0 q) = (V c main_v106 : S1x128.Idx → EReal) (ix2 0 q) := by
  obtain ⟨-, -, -, -, -, -, ea, eb, -⟩ := index7 t
  unfold iblk7
  rw [View.read_apply]
  show V c main_v106 _ = V c main_v106 _
  congr 1
  funext a
  apply Fin.ext
  match a with
  | ⟨0, _⟩ => show win7_3.index t 0 * 1 + 1 * 0 = 0; rw [ea]
  | ⟨1, _⟩ => show win7_3.index t 1 * 128 + 1 * q.val = q.val; rw [eb]; omega

/-- Entry (p, q) of the block of the previous layer's output at point t is entry (2000 t + p, q) of that array. -/
theorem skip7_apply (c : Dev nD) (t : Fin cfg7.N) (p : Fin 2000) (q : Fin 128) (r : Fin 50000) (hr : r.val = 2000 * t.val + p.val) :
    (iblk7 V c 4 t : Vec Ideal S2000x128 .f32) (ix2 p q) = (V c main_v87 : S50000x128.Idx → EReal) (ix2 r q) := by
  obtain ⟨-, -, -, -, -, -, -, -, ea, eb, -⟩ := index7 t
  unfold iblk7
  rw [View.read_apply]
  show V c main_v87 _ = V c main_v87 _
  congr 1
  funext a
  apply Fin.ext
  match a with
  | ⟨0, _⟩ => show win7_4.index t 0 * 2000 + 1 * p.val = r.val; rw [ea, hr]; omega
  | ⟨1, _⟩ => show win7_4.index t 1 * 128 + 1 * q.val = q.val; rw [eb]; omega

/-- What point t writes back is block t of the layer's combine. -/
theorem flushed7 (c : Dev nD) (t : Fin cfg7.N) :
    (dat7 (F := Ideal) V c).flushed 5 t
      = ((cfg7.win 5).blk t).view.read (Elt Ideal) (Gcn.combineRelu (V c main_v105) (V c main_v92) (V c main_v27) (V c main_v106) (V c main_v87)) := by
  show (cfg7.win 5).cut (grid7.coords t) ((dat7 V c).after 5 t) = _
  rw [after7_5]
  unfold out7_5
  rw [View.canon_unit_zero origin7]
  simp only [View.ld_unit_zero (S := S2000x128) origin7, View.ld_unit_zero (S := S2000x1) origin7, View.ld_unit_zero (S := S1x128) origin7]
  obtain ⟨-, -, -, -, -, -, -, -, -, -, ea, eb⟩ := index7 t
  have ht : t.val < 25 := t.isLt
  funext j
  obtain ⟨p, q, rfl⟩ : ∃ (p : Fin 2000) (q : Fin 128), j = ix2 p q := ⟨j 0, j 1, eq_ix2 j⟩
  have hp : p.val < 2000 := p.isLt
  refine (stored7_apply (iblk7 V c 0 t) (iblk7 V c 2 t) (iblk7 V c 1 t) (iblk7 V c 3 t) (iblk7 V c 4 t) p q).trans ?_
  rw [View.read_apply]
  have hemb : ((cfg7.win 5).blk t).view.emb (ix2 p q) = (ix2 (⟨2000 * t.val + p.val, by omega⟩ : Fin 50000) q : S50000x128.Idx) := by
    funext a
    apply Fin.ext
    match a with
    | ⟨0, _⟩ => show win7_5.index t 0 * 2000 + 1 * p.val = 2000 * t.val + p.val; rw [ea]; omega
    | ⟨1, _⟩ => show win7_5.index t 1 * 128 + 1 * q.val = q.val; rw [eb]; omega
  rw [hemb]
  refine Eq.trans ?_ (combineRelu7_apply _ _ _ _ _ ⟨2000 * t.val + p.val, by omega⟩ q).symm
  rw [agg7_apply V c t p q ⟨2000 * t.val + p.val, by omega⟩ rfl, self7_apply V c t p q ⟨2000 * t.val + p.val, by omega⟩ rfl,
    scale7_apply V c t p ⟨2000 * t.val + p.val, by omega⟩ rfl, bias7_apply V c t q,
    skip7_apply V c t p q ⟨2000 * t.val + p.val, by omega⟩ rfl]

/-- An index of the result array is in point t's block iff each coordinate is in the block's range on its axis. -/
theorem mem_block7 (t : Fin cfg7.N) (i : S50000x128.Idx) :
    i ∈ ((cfg7.win 5).blk t).view.set ↔ ∀ a : Fin 2, win7_5.index t a * S2000x128.size a ≤ (i a).val ∧ (i a).val < win7_5.index t a * S2000x128.size a + S2000x128.size a := by
  show i ∈ ((View.whole main_v107).slice (win7_5.rect t)).set ↔ _
  rw [View.set_slice_whole, Rect.mem_set_unit]
  exact Iff.rfl

theorem final7 (c : Dev nD) :
    (dat7 (F := Ideal) V c).arrAt 5 cfg7.N = Gcn.combineRelu (V c main_v105) (V c main_v92) (V c main_v27) (V c main_v106) (V c main_v87) :=
  (dat7 (F := Ideal) V c).arrAt_eq_of_cover 5 (Gcn.combineRelu (V c main_v105) (V c main_v92) (V c main_v27) (V c main_v106) (V c main_v87)) (fun t _ => flushed7 V c t) fun i => by
    have h0 : (i 0).val < 50000 := (i 0).isLt
    have h1 : (i 1).val < 128 := (i 1).isLt
    let t : Fin cfg7.N := ⟨(i 0).val / 2000, by show _ < 25; omega⟩
    obtain ⟨-, -, -, -, -, -, -, -, -, -, ea, eb⟩ := index7 t
    have et : t.val = (i 0).val / 2000 := rfl
    refine ⟨t, flush7_5 t, ?_⟩
    rw [mem_block7]
    intro a
    match a with
    | ⟨0, _⟩ => show win7_5.index t (0 : Fin 2) * 2000 ≤ (i 0).val ∧ (i 0).val < win7_5.index t (0 : Fin 2) * 2000 + 2000; rw [ea, et]; omega
    | ⟨1, _⟩ => show win7_5.index t (1 : Fin 2) * 128 ≤ (i 1).val ∧ (i 1).val < win7_5.index t (1 : Fin 2) * 128 + 128; rw [eb]; omega

end Cert.Gcn.Regions

end
-- ==== Proof.ChainD.lean ====
/-
  The fourth layer.
-/
import proofs.«179305_j15616501088588_1_alg».proof.Proof.Gen.KernelIdeal.Frame
import proofs.«179305_j15616501088588_1_alg».proof.Proof.Gen.ReferenceIdeal.Read
import proofs.«179305_j15616501088588_1_alg».proof.Proof.Spec
import proofs.«179305_j15616501088588_1_alg».proof.Proof.Bridge
import proofs.«179305_j15616501088588_1_alg».proof.Proof.ChainC
import proofs.«179305_j15616501088588_1_alg».proof.Proof.Final6
import proofs.«179305_j15616501088588_1_alg».proof.Proof.Final7
import proofs.«179305_j15616501088588_1_alg».proof.Proof.KeepEdges
import proofs.«179305_j15616501088588_1_alg».proof.Proof.KeepLayers
import proofs.«179305_j15616501088588_1_alg».proof.Proof.KeepArgs
import Idealize.ShloMosaic.Lib.StableHlo.Run
import Idealize.ShloMosaic.PureOps.Ideal

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The previous layer's output as dense launch 6 finds it. -/
theorem W18_main_v87 (c : Dev nD) : W18 m ρ c (Proc.devRef .tc main_v87) = (Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (keep_main_v87_18_16 m ρ c).trans (W16_main_v87 m ρ c)
/-- Layer 3's weight matrix divided by its norm, transposed. -/
theorem W18_main_v91 (c : Dev nD) : W18 m ρ c (Proc.devRef .tc main_v91) = (Cert.ReferenceIdeal.Read.val_main_v155 (F := Ideal) (m ((c : Thread nD τ).loc main_arg8))) := by
  after_results_simp
  rw [show W16 m ρ c (Proc.devRef .tc main_arg8) = (m ((c : Thread nD τ).loc main_arg8)) from keep_main_arg8_16_0 m ρ c]
  rfl
/-- Dense launch 6 leaves the reference's matrix product of layer 3. -/
theorem W19_main_v92 (c : Dev nD) : W19 m ρ c (Proc.devRef .tc main_v92) = (Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W19_arr m ρ c 2).trans ((Cert.Gcn.Regions.final6 (V18 m ρ) c).trans ?_)
  show Cert.Gcn.lin (W18 m ρ c (Proc.devRef .tc main_v87)) (W18 m ρ c (Proc.devRef .tc main_v91)) = _
  rw [W18_main_v87 m ρ c, W18_main_v91 m ρ c]
  exact (Cert.Gcn.host_lin _ rfl _ _).symm
theorem W19_main_v1 (c : Dev nD) : W19 m ρ c (Proc.devRef .tc main_v1) = (Cert.ReferenceIdeal.Read.val_main_v1 (F := Ideal) (m ((c : Thread nD τ).loc main_arg1))) :=
  (keep_main_v1_19_14 m ρ c).trans (W14_main_v1 m ρ c)
theorem W19_main_v3 (c : Dev nD) : W19 m ρ c (Proc.devRef .tc main_v3) = (Cert.ReferenceIdeal.Read.val_main_v3 (F := Ideal) (m ((c : Thread nD τ).loc main_arg1))) :=
  (keep_main_v3_19_14 m ρ c).trans (W14_main_v3 m ρ c)
theorem W19_main_v25 (c : Dev nD) : W19 m ρ c (Proc.devRef .tc main_v25) = (Cert.ReferenceIdeal.Read.val_main_v30 (F := Ideal) (m ((c : Thread nD τ).loc main_arg1))) :=
  (keep_main_v25_19_14 m ρ c).trans (W14_main_v25 m ρ c)
theorem W19_main_v27 (c : Dev nD) : W19 m ρ c (Proc.devRef .tc main_v27) = shapeCast S50000x1 (Cert.ReferenceIdeal.Read.val_main_v44 (F := Ideal) (m ((c : Thread nD τ).loc main_arg1))) shapeCasts_S50000_S50000x1 :=
  (keep_main_v27_19_14 m ρ c).trans (W14_main_v27 m ρ c)
/-- The host's gather along the sources, scaling by the per-edge normalisation and scatter-add along the targets
    is the reference's aggregation of layer 3. -/
theorem W20_main_v105 (c : Dev nD) : W20 m ρ c (Proc.devRef .tc main_v105) = (Cert.ReferenceIdeal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  after_results_simp
  rw [W19_main_v92 m ρ c, W19_main_v1 m ρ c, W19_main_v3 m ρ c, W19_main_v25 m ρ c]
  rfl
theorem W20_main_v92 (c : Dev nD) : W20 m ρ c (Proc.devRef .tc main_v92) = (Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (keep_main_v92_20_19 m ρ c).trans (W19_main_v92 m ρ c)
theorem W20_main_v27 (c : Dev nD) : W20 m ρ c (Proc.devRef .tc main_v27) = shapeCast S50000x1 (Cert.ReferenceIdeal.Read.val_main_v44 (F := Ideal) (m ((c : Thread nD τ).loc main_arg1))) shapeCasts_S50000_S50000x1 :=
  (keep_main_v27_20_19 m ρ c).trans (W19_main_v27 m ρ c)
/-- The bias of layer 3 as a row. -/
theorem W20_main_v106 (c : Dev nD) : W20 m ρ c (Proc.devRef .tc main_v106) = shapeCast S1x128 (m ((c : Thread nD τ).loc main_arg9)) shapeCasts_S128_S1x128 := by
  after_results_simp
  rw [show W19 m ρ c (Proc.devRef .tc main_arg9) = (m ((c : Thread nD τ).loc main_arg9)) from keep_main_arg9_19_0 m ρ c]
  rfl
theorem W20_main_v87 (c : Dev nD) : W20 m ρ c (Proc.devRef .tc main_v87) = (Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (keep_main_v87_20_18 m ρ c).trans (W18_main_v87 m ρ c)
/-- Combine launch 7 leaves the reference's layer 3: through max(·, 0), plus the previous layer's output. -/
theorem W21_main_v107 (c : Dev nD) : W21 m ρ c (Proc.devRef .tc main_v107) = (Cert.ReferenceIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W21_arr m ρ c 5).trans ((Cert.Gcn.Regions.final7 (V20 m ρ) c).trans ?_)
  show Cert.Gcn.combineRelu (W20 m ρ c (Proc.devRef .tc main_v105)) (W20 m ρ c (Proc.devRef .tc main_v92)) (W20 m ρ c (Proc.devRef .tc main_v27)) (W20 m ρ c (Proc.devRef .tc main_v106)) (W20 m ρ c (Proc.devRef .tc main_v87)) = _
  rw [W20_main_v105 m ρ c, W20_main_v92 m ρ c, W20_main_v27 m ρ c, W20_main_v106 m ρ c, W20_main_v87 m ρ c]
  simp only [Cert.ReferenceIdeal.Read.val_main_v201, Cert.ReferenceIdeal.Read.val_main_v200, Cert.ReferenceIdeal.Read.val_main_v199, Cert.ReferenceIdeal.Read.val_main_v196, Cert.ReferenceIdeal.Read.val_main_v195, Cert.ReferenceIdeal.Read.val_main_v194, Cert.ReferenceIdeal.Read.val_main_v193, Cert.ReferenceIdeal.Read.val_main_v198, Cert.ReferenceIdeal.Read.val_main_v197, Cert.ReferenceIdeal.Read.val_main_call6_v0, Cert.ReferenceIdeal.Read.val_main_call6_cst]
  exact Cert.Gcn.host_combineRelu _ _ _ _ _ _ _ _ _ _ _ _

end Cert.Gcn.Chain

end
-- ==== Proof.Final8.lean ====
/-
  Region 8: what its output array holds after the launch, as one function of the arrays the region found.
-/
import proofs.«179305_j15616501088588_1_alg».proof.Proof.Gen.KernelIdeal.Frame
import proofs.«179305_j15616501088588_1_alg».proof.Proof.Spec
import proofs.«179305_j15616501088588_1_alg».proof.Proof.LibDotCols
import Idealize.ShloMosaic.Lib.ValueLayout
import Idealize.ShloMosaic.Lib.Pipeline.Value

set_option maxRecDepth 16384

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's accesses start at the origin of their buffers. -/
theorem origin8 : (![0, 0] : Fin 2 → Nat) = fun _ => 0 := funext fun a => by fin_cases a <;> rfl

/-- The classifier at row r and column q, written out. -/
theorem classify8_apply (X : FVec Ideal SNxD .f32) (W : FVec Ideal SDxC .f32) (b : FVec Ideal S1xC .f32) (r : Fin 50000) (q : Fin 40) :
    Gcn.classify X W b (ix2 r q) = (∑ k : Fin 128, X (ix2 r k) * W (ix2 k q)) + b (ix2 0 q) := rfl

/-- What the body stores at (p, q): row p of its block of features times column q of the weights, plus the bias of
    column q. -/
theorem stored8_apply (x0 : Vec Ideal S2000x128 .f32) (x1 : Vec Ideal S128x40 .f32) (x2 : Vec Ideal S1x40 .f32) (p : Fin 2000) (q : Fin 40) :
    k8_pay1 (F := Ideal) x0 x1 x2 (ix2 p q) = (∑ k : Fin 128, x0 (ix2 p k) * x1 (ix2 k q)) + x2 (ix2 0 q) := by
  unfold k8_pay1
  show FloatOps.matmul (F := Ideal) dot_S2000x128_S128x40_S2000x40_1_0_0_1_n_n none (truncf .bf16 (shapeCast S2000x128 x0 _) _) (truncf .bf16 (shapeCast S128x40 x1 _) _)
        (constant (F := Ideal) S2000x40 .f32 0x00000000#32) (ix2 p q)
      + broadcastTo S2000x40 (shapeCast S1x40 x2 _) _ (ix2 p q) = _
  rw [Cert.Lib.DotCols.matmul_cols_apply dot_S2000x128_S128x40_S2000x40_1_0_0_1_n_n rfl none _ _ p q, broadcastTo_1b_ab_apply]
  simp only [shapeCast_self]
  rfl

/-- The block index maps over the grid: point t takes rows 2000 t … 2000 t + 1999 of the features and of the result, and
    the whole weight matrix and bias row. -/
theorem index8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Entry (p, k) of the feature block at point t is entry (2000 t + p, k) of the feature array. -/
theorem feat8_apply (c : Dev nD) (t : Fin cfg8.N) (p : Fin 2000) (q : Fin 128) (r : Fin 50000) (hr : r.val = 2000 * t.val + p.val) :
    (iblk8 V c 0 t : Vec Ideal S2000x128 .f32) (ix2 p q) = (V c main_v107 : S50000x128.Idx → EReal) (ix2 r q) := by
  obtain ⟨ea, eb, -⟩ := index8 t
  unfold iblk8
  rw [View.read_apply]
  show V c main_v107 _ = V c main_v107 _
  congr 1
  funext a
  apply Fin.ext
  match a with
  | ⟨0, _⟩ => show win8_0.index t 0 * 2000 + 1 * p.val = r.val; rw [ea, hr]; omega
  | ⟨1, _⟩ => show win8_0.index t 1 * 128 + 1 * q.val = q.val; rw [eb]; omega

/-- The weight window's block at every point is the weight matrix. -/
theorem weight8_apply (c : Dev nD) (t : Fin cfg8.N) (k : Fin 128) (q : Fin 40) :
    (iblk8 V c 1 t : Vec Ideal S128x40 .f32) (ix2 k q) = (V c main_v108 : S128x40.Idx → EReal) (ix2 k q) := by
  obtain ⟨-, -, ea, eb, -⟩ := index8 t
  unfold iblk8
  rw [View.read_apply]
  show V c main_v108 _ = V c main_v108 _
  congr 1
  funext a
  apply Fin.ext
  match a with
  | ⟨0, _⟩ => show win8_1.index t 0 * 128 + 1 * k.val = k.val; rw [ea]; omega
  | ⟨1, _⟩ => show win8_1.index t 1 * 40 + 1 * q.val = q.val; rw [eb]; omega

/-- The bias window's block at every point is the bias row. -/
theorem bias8_apply (c : Dev nD) (t : Fin cfg8.N) (q : Fin 40) :
    (iblk8 V c 2 t : Vec Ideal S1x40 .f32) (ix2 0 q) = (V c main_v109 : S1x40.Idx → EReal) (ix2 0 q) := by
  obtain ⟨-, -, -, -, ea, eb, -⟩ := index8 t
  unfold iblk8
  rw [View.read_apply]
  show V c main_v109 _ = V c main_v109 _
  congr 1
  funext a
  apply Fin.ext
  match a with
  | ⟨0, _⟩ => show win8_2.index t 0 * 1 + 1 * 0 = 0; rw [ea]
  | ⟨1, _⟩ => show win8_2.index t 1 * 40 + 1 * q.val = q.val; rw [eb]; omega

/-- What point t writes back is block t of the classifier's output. -/
theorem flushed8 (c : Dev nD) (t : Fin cfg8.N) :
    (dat8 (F := Ideal) V c).flushed 3 t
      = ((cfg8.win 3).blk t).view.read (Elt Ideal) (Gcn.classify (V c main_v107) (V c main_v108) (V c main_v109)) := by
  show (cfg8.win 3).cut (grid8.coords t) ((dat8 V c).after 3 t) = _
  rw [after8_3]
  unfold out8_3
  rw [View.canon_unit_zero origin8]
  simp only [View.ld_unit_zero (S := S2000x128) origin8, View.ld_unit_zero (S := S128x40) origin8, View.ld_unit_zero (S := S1x40) origin8]
  obtain ⟨-, -, -, -, -, -, ea, eb⟩ := index8 t
  have ht : t.val < 25 := t.isLt
  funext j
  obtain ⟨p, q, rfl⟩ : ∃ (p : Fin 2000) (q : Fin 40), j = ix2 p q := ⟨j 0, j 1, eq_ix2 j⟩
  have hp : p.val < 2000 := p.isLt
  refine (stored8_apply (iblk8 V c 0 t) (iblk8 V c 1 t) (iblk8 V c 2 t) p q).trans ?_
  rw [View.read_apply]
  have hemb : ((cfg8.win 3).blk t).view.emb (ix2 p q) = (ix2 (⟨2000 * t.val + p.val, by omega⟩ : Fin 50000) q : S50000x40.Idx) := by
    funext a
    apply Fin.ext
    match a with
    | ⟨0, _⟩ => show win8_3.index t 0 * 2000 + 1 * p.val = 2000 * t.val + p.val; rw [ea]; omega
    | ⟨1, _⟩ => show win8_3.index t 1 * 40 + 1 * q.val = q.val; rw [eb]; omega
  rw [hemb]
  refine Eq.trans ?_ (classify8_apply _ _ _ ⟨2000 * t.val + p.val, by omega⟩ q).symm
  rw [bias8_apply V c t q]
  refine congrArg₂ (· + ·) (Finset.sum_congr rfl fun k _ => ?_) rfl
  rw [feat8_apply V c t p k ⟨2000 * t.val + p.val, by omega⟩ rfl, weight8_apply V c t k q]

/-- An index of the result array is in point t's block iff each coordinate is in the block's range on its axis. -/
theorem mem_block8 (t : Fin cfg8.N) (i : S50000x40.Idx) :
    i ∈ ((cfg8.win 3).blk t).view.set ↔ ∀ a : Fin 2, win8_3.index t a * S2000x40.size a ≤ (i a).val ∧ (i a).val < win8_3.index t a * S2000x40.size a + S2000x40.size a := by
  show i ∈ ((View.whole main_v110).slice (win8_3.rect t)).set ↔ _
  rw [View.set_slice_whole, Rect.mem_set_unit]
  exact Iff.rfl

theorem final8 (c : Dev nD) :
    (dat8 (F := Ideal) V c).arrAt 3 cfg8.N = Gcn.classify (V c main_v107) (V c main_v108) (V c main_v109) :=
  (dat8 (F := Ideal) V c).arrAt_eq_of_cover 3 (Gcn.classify (V c main_v107) (V c main_v108) (V c main_v109)) (fun t _ => flushed8 V c t) fun i => by
    have h0 : (i 0).val < 50000 := (i 0).isLt
    have h1 : (i 1).val < 40 := (i 1).isLt
    let t : Fin cfg8.N := ⟨(i 0).val / 2000, by show _ < 25; omega⟩
    obtain ⟨-, -, -, -, -, -, ea, eb⟩ := index8 t
    have et : t.val = (i 0).val / 2000 := rfl
    refine ⟨t, flush8_3 t, ?_⟩
    rw [mem_block8]
    intro a
    match a with
    | ⟨0, _⟩ => show win8_3.index t (0 : Fin 2) * 2000 ≤ (i 0).val ∧ (i 0).val < win8_3.index t (0 : Fin 2) * 2000 + 2000; rw [ea, et]; omega
    | ⟨1, _⟩ => show win8_3.index t (1 : Fin 2) * 40 ≤ (i 1).val ∧ (i 1).val < win8_3.index t (1 : Fin 2) * 40 + 40; rw [eb]; omega

end Cert.Gcn.Regions

end
-- ==== Proof.ChainE.lean ====
/-
  The classifier: the last layer's output times the transposed classifier weights, plus its bias row — the
  reference's result.
-/
import proofs.«179305_j15616501088588_1_alg».proof.Proof.Gen.KernelIdeal.Frame
import proofs.«179305_j15616501088588_1_alg».proof.Proof.Gen.ReferenceIdeal.Read
import proofs.«179305_j15616501088588_1_alg».proof.Proof.Spec
import proofs.«179305_j15616501088588_1_alg».proof.Proof.Bridge
import proofs.«179305_j15616501088588_1_alg».proof.Proof.ChainD
import proofs.«179305_j15616501088588_1_alg».proof.Proof.Final8
import proofs.«179305_j15616501088588_1_alg».proof.Proof.KeepLayers
import proofs.«179305_j15616501088588_1_alg».proof.Proof.KeepArgs
import Idealize.ShloMosaic.Lib.StableHlo.Run
import Idealize.ShloMosaic.PureOps.Ideal

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem W22_main_v107 (c : Dev nD) : W22 m ρ c (Proc.devRef .tc main_v107) = (Cert.ReferenceIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (keep_main_v107_22_21 m ρ c).trans (W21_main_v107 m ρ c)
/-- The classifier's weights, transposed. -/
theorem W22_main_v108 (c : Dev nD) : W22 m ρ c (Proc.devRef .tc main_v108) = (Cert.ReferenceIdeal.Read.val_main_v202 (F := Ideal) (m ((c : Thread nD τ).loc main_arg10))) := by
  after_results_simp
  rw [show W21 m ρ c (Proc.devRef .tc main_arg10) = (m ((c : Thread nD τ).loc main_arg10)) from keep_main_arg10_21_0 m ρ c]
  rfl
/-- The classifier's bias as a row. -/
theorem W22_main_v109 (c : Dev nD) : W22 m ρ c (Proc.devRef .tc main_v109) = shapeCast S1x40 (m ((c : Thread nD τ).loc main_arg11)) shapeCasts_S40_S1x40 := by
  after_results_simp
  rw [show W21 m ρ c (Proc.devRef .tc main_arg11) = (m ((c : Thread nD τ).loc main_arg11)) from keep_main_arg11_21_0 m ρ c]
  rfl
/-- THE KERNEL'S RESULT: after the last launch the result buffer holds the reference's value of the arguments. -/
theorem W23_main_v110 (c : Dev nD) : W23 m ρ c (Proc.devRef .tc main_v110) = (Cert.ReferenceIdeal.Read.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W23_arr m ρ c 3).trans ((Cert.Gcn.Regions.final8 (V22 m ρ) c).trans ?_)
  show Cert.Gcn.classify (W22 m ρ c (Proc.devRef .tc main_v107)) (W22 m ρ c (Proc.devRef .tc main_v108)) (W22 m ρ c (Proc.devRef .tc main_v109)) = _
  rw [W22_main_v107 m ρ c, W22_main_v108 m ρ c, W22_main_v109 m ρ c]
  simp only [Cert.ReferenceIdeal.Read.val_main_v206, Cert.ReferenceIdeal.Read.val_main_v205, Cert.ReferenceIdeal.Read.val_main_v204, Cert.ReferenceIdeal.Read.val_main_v203]
  exact Cert.Gcn.host_classify _ rfl _ _ _ _ _ _

end Cert.Gcn.Chain

end
-- ==== Proof.lean ====
/-
  A four-layer graph convolution network with a linear classifier: the tiled kernel program against its plain
  reference, over the extended reals.

  Both programs compute, from the node features X, the edge list and the weights, the same chain of arrays.  Per
  layer: the weight matrix divided by its Frobenius norm and transposed; the dense step X · Wᵀ; the aggregation — each
  edge's source row scaled by the product of the inverse-root degrees of its two ends, summed into the edge's target
  row —; and the combine, aggregation + (inverse-root degree)² · (dense step) + bias, from the second layer on through
  max(·, 0) and with the previous layer's output added back.  The classifier is a last matrix product plus a bias row.
  The kernel program runs the dense steps, the combines and the classifier as nine launches over blocks of 2000
  rows and leaves the gather and scatter-add to the host; the reference is host operations throughout and recomputes
  the degrees in every layer.  Over the extended reals the two are the same function with no condition on the
  inputs: a launch's output array is the layer's function of the arrays it found (Final0 … Final8: block t of the
  output is the function of block t of the inputs, and the blocks tile the rows), that function is the reference's
  host spelling of the layer (Bridge), and the host operations between the launches are the reference's own
  (ChainA … ChainE walk the program segment by segment, each buffer at the reference's stage of the arguments).
  The precondition is never opened: nothing is reordered, so no finiteness is needed.
-/
import proofs.«179305_j15616501088588_1_alg».proof.Defs
import proofs.«179305_j15616501088588_1_alg».proof.Proof.Gen.Kernel
import proofs.«179305_j15616501088588_1_alg».proof.Proof.Gen.Kernel.Skeleton
import proofs.«179305_j15616501088588_1_alg».proof.Proof.Gen.Kernel.Launch
import proofs.«179305_j15616501088588_1_alg».proof.Proof.Gen.Kernel.Points
import proofs.«179305_j15616501088588_1_alg».proof.Proof.Gen.Kernel.Frame
import proofs.«179305_j15616501088588_1_alg».proof.Proof.Gen.KernelIdeal
import proofs.«179305_j15616501088588_1_alg».proof.Proof.Gen.KernelIdeal.Skeleton
import proofs.«179305_j15616501088588_1_alg».proof.Proof.Gen.KernelIdeal.Launch
import proofs.«179305_j15616501088588_1_alg».proof.Proof.Gen.KernelIdeal.Points
import proofs.«179305_j15616501088588_1_alg».proof.Proof.Gen.KernelIdeal.Frame
import proofs.«179305_j15616501088588_1_alg».proof.Proof.Gen.ReferenceIdeal
import proofs.«179305_j15616501088588_1_alg».proof.Proof.Gen.Pre_finite_inputs
import proofs.«179305_j15616501088588_1_alg».proof.Proof.Gen.ReferenceIdeal.Run
import proofs.«179305_j15616501088588_1_alg».proof.Proof.Gen.ReferenceIdeal.Read
import proofs.«179305_j15616501088588_1_alg».proof.Proof.KRun
import proofs.«179305_j15616501088588_1_alg».proof.Proof.ChainE
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, terminates, and leaves its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the reference's value of the (agreeing) arguments. -/
theorem algebraic : Cert.algebraic_KernelIdeal_ReferenceIdeal := by
  intro m ρ m' ρ' _ hagree
  refine ⟨fun c => Cert.ReferenceIdeal.Read.val_main_v206 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c _ (Cert.KernelIdeal.Gen.mem_uc Cert.KernelIdeal.main_v110 (by decide))).trans (Cert.Gcn.Chain.W23_main_v110 m ρ c),
       (h c _ (Cert.KernelIdeal.Gen.mem_uc Cert.KernelIdeal.main_arg0 (by decide))).trans (Cert.KernelIdeal.Gen.W23_main_arg0 m ρ c),
       (h c _ (Cert.KernelIdeal.Gen.mem_uc Cert.KernelIdeal.main_arg1 (by decide))).trans (Cert.KernelIdeal.Gen.W23_main_arg1 m ρ c),
       (h c _ (Cert.KernelIdeal.Gen.mem_uc Cert.KernelIdeal.main_arg2 (by decide))).trans (Cert.KernelIdeal.Gen.W23_main_arg2 m ρ c),
       (h c _ (Cert.KernelIdeal.Gen.mem_uc Cert.KernelIdeal.main_arg3 (by decide))).trans (Cert.KernelIdeal.Gen.W23_main_arg3 m ρ c),
       (h c _ (Cert.KernelIdeal.Gen.mem_uc Cert.KernelIdeal.main_arg4 (by decide))).trans (Cert.KernelIdeal.Gen.W23_main_arg4 m ρ c),
       (h c _ (Cert.KernelIdeal.Gen.mem_uc Cert.KernelIdeal.main_arg5 (by decide))).trans (Cert.KernelIdeal.Gen.W23_main_arg5 m ρ c),
       (h c _ (Cert.KernelIdeal.Gen.mem_uc Cert.KernelIdeal.main_arg6 (by decide))).trans (Cert.KernelIdeal.Gen.W23_main_arg6 m ρ c),
       (h c _ (Cert.KernelIdeal.Gen.mem_uc Cert.KernelIdeal.main_arg7 (by decide))).trans (Cert.KernelIdeal.Gen.W23_main_arg7 m ρ c),
       (h c _ (Cert.KernelIdeal.Gen.mem_uc Cert.KernelIdeal.main_arg8 (by decide))).trans (Cert.KernelIdeal.Gen.W23_main_arg8 m ρ c),
       (h c _ (Cert.KernelIdeal.Gen.mem_uc Cert.KernelIdeal.main_arg9 (by decide))).trans (Cert.KernelIdeal.Gen.W23_main_arg9 m ρ c),
       (h c _ (Cert.KernelIdeal.Gen.mem_uc Cert.KernelIdeal.main_arg10 (by decide))).trans (Cert.KernelIdeal.Gen.W23_main_arg10 m ρ c),
       (h c _ (Cert.KernelIdeal.Gen.mem_uc Cert.KernelIdeal.main_arg11 (by decide))).trans (Cert.KernelIdeal.Gen.W23_main_arg11 m ρ c)⟩)
      (Cert.KernelIdeal.Gen.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v206_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
